-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x196x384 : Shape := ⟨4, ![8, 64, 196, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S_ : Shape := ⟨0, ![]⟩

class Facts : Prop where
  bcast_S_S8x64x196x384 : S_.BroadcastsInDim S8x64x196x384 (![] : Fin 0 → Fin S8x64x196x384.rank)
  reducesTo_S8x64x196x384_S_d0_1_2_3 : S8x64x196x384.ReducesTo [0, 1, 2, 3] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S8x64x196x384 .f32) (main_arg1 : FVec F S1152x384 .f32) (main_arg2 : FVec F S1152 .f32) (main_arg3 : FVec F S384x384 .f32) (main_arg4 : FVec F S384 .f32) : IVec S_ 1 :=
  let main_v0 : FVec F S8x64x196x384 .f32 := Host.absf main_arg0
  let main_cst : FVec F S_ .f32 := constant S_ .f32 0x7F800000#32
  let main_v1 : FVec F S8x64x196x384 .f32 := broadcastInDim S8x64x196x384 ![] bcast_S_S8x64x196x384 main_cst
  let main_v2 : IVec S8x64x196x384 1 := cmpf .olt main_v0 main_v1
  let main_c : IVec S_ 1 := constantI S_ 1 1#1
  let main_v3 : IVec S_ 1 := (fun x v => Host.reduce IntOp.andi x v reducesTo_S8x64x196x384_S_d0_1_2_3 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S8x64x196x384 : Shape := ⟨4, ![8, 64, 196, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S384x64x6 : Shape := ⟨3, ![384, 64, 6]⟩
abbrev S384x6x64 : Shape := ⟨3, ![384, 6, 64]⟩
abbrev S1x8x196x384 : Shape := ⟨4, ![1, 8, 196, 384]⟩
abbrev S8x196x1152 : Shape := ⟨3, ![8, 196, 1152]⟩
abbrev S8x196x384 : Shape := ⟨3, ![8, 196, 384]⟩
abbrev S1568x384 : Shape := ⟨2, ![1568, 384]⟩
abbrev S1568x1152 : Shape := ⟨2, ![1568, 1152]⟩
abbrev S1x1152 : Shape := ⟨2, ![1, 1152]⟩
abbrev S1x196x1152 : Shape := ⟨3, ![1, 196, 1152]⟩
abbrev S196x1152 : Shape := ⟨2, ![196, 1152]⟩
abbrev S196x384 : Shape := ⟨2, ![196, 384]⟩
abbrev S196x6x64 : Shape := ⟨3, ![196, 6, 64]⟩
abbrev S6x196x64 : Shape := ⟨3, ![6, 196, 64]⟩
abbrev S6x196x196 : Shape := ⟨3, ![6, 196, 196]⟩
abbrev S6x196 : Shape := ⟨2, ![6, 196]⟩
abbrev S6x196x1 : Shape := ⟨3, ![6, 196, 1]⟩
abbrev S1x384 : Shape := ⟨2, ![1, 384]⟩
abbrev S1x1x196x384 : Shape := ⟨4, ![1, 1, 196, 384]⟩

abbrev nBuf : Space → Nat
  | .hbm => 9
  | .vmem => 9
  | .smem => 0
  | _ => 0

abbrev bufTy : (tb : Table) → Fin (tcTables nBuf tb) → BufTy
  | .hbm, ⟨0, _⟩ => ⟨S8x64x196x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S384x64x6, .f32⟩
  | .hbm, ⟨6, _⟩ => ⟨S384x6x64, .f32⟩
  | .hbm, ⟨7, _⟩ => ⟨S384x384, .f32⟩
  | .hbm, ⟨8, _⟩ => ⟨S8x64x196x384, .f32⟩
  | .local _ .vmem, ⟨0, _⟩ => ⟨S1x8x196x384, .f32⟩
  | .local _ .vmem, ⟨1, _⟩ => ⟨S1x8x196x384, .f32⟩
  | .local _ .vmem, ⟨2, _⟩ => ⟨S1152x384, .f32⟩
  | .local _ .vmem, ⟨3, _⟩ => ⟨S1152, .f32⟩
  | .local _ .vmem, ⟨4, _⟩ => ⟨S384x384, .f32⟩
  | .local _ .vmem, ⟨5, _⟩ => ⟨S384, .f32⟩
  | .local _ .vmem, ⟨6, _⟩ => ⟨S1x8x196x384, .f32⟩
  | .local _ .vmem, ⟨7, _⟩ => ⟨S1x8x196x384, .f32⟩
  | .local _ .vmem, ⟨8, _⟩ => ⟨S8x196x1152, .f32⟩
  | _, _ => ⟨S8x64x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v20 : Index := Scalar.indexCast arg9
  let c0_13 : Index := 0#32
  let c0_14 : Index := 0#32
  ![v20.toNat, 0, 0]
def k0_off2 (k0_t1 : Fin k0_t1_loop.trips) : Fin 4 → Nat :=
  let c0_21 : Index := 0#32
  let c0_i32 : BitVec 32 := 0#32
  let c1_i32 : BitVec 32 := 1#32
  let arg9 : BitVec 32 := Scf.iv c0_i32 c1_i32 k0_t1
  let v56 : Index := Scalar.indexCast arg9
  let c0_22 : Index := 0#32
  let c0_23 : Index := 0#32
  ![0, v56.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x196x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x196x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S384x384_S384x64x6 : S384x384.ShapeCasts S384x64x6
  transposes_S384x64x6_S384x6x64_0_2_1 : S384x64x6.Transposes [0, 2, 1] S384x6x64
  shapeCasts_S384x6x64_S384x384 : S384x6x64.ShapeCasts S384x384
  inb_S1152x384_S1152x384_0_0 : ∀ a, (![0, 0] : Fin 2 → Nat) a + S1152x384.size a ≤ S1152x384.size a
  h_S1152x384 : 0 < S1152x384.numel
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1152_S1152_0 : ∀ a, (![0] : Fin 1 → Nat) a + S1152.size a ≤ S1152.size a
  h_S1152 : 0 < S1152.numel
  inb_S384_S384_0 : ∀ a, (![0] : Fin 1 → Nat) a + S384.size a ≤ S384.size a
  h_S384 : 0 < S384.numel
  inb_S1x8x196x384_S1x8x196x384_0_0_0_0 : ∀ a, (![0, 0, 0, 0] : Fin 4 → Nat) a + S1x8x196x384.size a ≤ S1x8x196x384.size a
  h_S1x8x196x384 : 0 < S1x8x196x384.numel
  shapeCasts_S1x8x196x384_S8x196x384 : S1x8x196x384.ShapeCasts S8x196x384
  shapeCasts_S8x196x384_S1568x384 : S8x196x384.ShapeCasts S1568x384
  shapeCasts_S1152_S1x1152 : S1152.ShapeCasts S1x1152
  broadcasts_S1x1152_S1568x1152 : S1x1152.Broadcasts S1568x1152
  shapeCasts_S1568x1152_S8x196x1152 : S1568x1152.ShapeCasts S8x196x1152
  inb_S8x196x1152_S8x196x1152_0_0_0 : ∀ a, (![0, 0, 0] : Fin 3 → Nat) a + S8x196x1152.size a ≤ S8x196x1152.size a
  h_S8x196x1152 : 0 < S8x196x1152.numel
  shapeCasts_S8x196x1152_S8x196x1152 : S8x196x1152.ShapeCasts S8x196x1152
  h_S1x196x1152 : 0 < S1x196x1152.numel
  shapeCasts_S1x196x1152_S196x1152 : S1x196x1152.ShapeCasts S196x1152
  slices_S196x1152_o0_0_S196x384 : S196x1152.Slices ![0, 0] S196x384
  slices_S196x1152_o0_384_S196x384 : S196x1152.Slices ![0, 384] S196x384
  slices_S196x1152_o0_768_S196x384 : S196x1152.Slices ![0, 768] S196x384
  shapeCasts_S196x384_S196x6x64 : S196x384.ShapeCasts S196x6x64
  transposes_S196x6x64_p1_0_2_S6x196x64 : S196x6x64.Transposes [1, 0, 2] S6x196x64
  reduces_S6x196x196_S6x196 : S6x196x196.Reduces [2] S6x196
  shapeCasts_S6x196_S6x196x1 : S6x196.ShapeCasts S6x196x1
  broadcasts_S6x196x1_S6x196x196 : S6x196x1.Broadcasts S6x196x196
  transposes_S6x196x64_p1_0_2_S196x6x64 : S6x196x64.Transposes [1, 0, 2] S196x6x64
  shapeCasts_S196x6x64_S196x384 : S196x6x64.ShapeCasts S196x384
  shapeCasts_S384_S1x384 : S384.ShapeCasts S1x384
  broadcasts_S1x384_S196x384 : S1x384.Broadcasts S196x384
  h_S1x1x196x384 : 0 < S1x1x196x384.numel
  shapeCasts_S1x1x196x384_S196x384 : S1x1x196x384.ShapeCasts S196x384
  shapeCasts_S196x384_S1x1x196x384 : S196x384.ShapeCasts S1x1x196x384
  dot_S1568x384_S1152x384_S1568x1152_1_1_0_0_n_n_wf : DotDims.WF S1568x384 S1152x384 S1568x1152 [1] [1] [0] [0] [] []
  dot_S6x196x64_S6x196x64_S6x196x196_2_2_1_1_0_0_wf : DotDims.WF S6x196x64 S6x196x64 S6x196x196 [2] [2] [1] [1] [0] [0]
  dot_S6x196x196_S6x196x64_S6x196x64_2_1_1_2_0_0_wf : DotDims.WF S6x196x196 S6x196x64 S6x196x64 [2] [1] [1] [2] [0] [0]
  dot_S196x384_S384x384_S196x384_1_1_0_0_n_n_wf : DotDims.WF S196x384 S384x384 S196x384 [1] [1] [0] [0] [] []
  hrank0 : 0 < grid0.rank
  k0_t1_ok : k0_t1_loop.OK
  k0_off1_inb : ∀ k0_t1 : Fin k0_t1_loop.trips, ∀ a, (k0_off1 k0_t1) a + S1x196x1152.size a ≤ S8x196x1152.size a
  k0_off2_inb : ∀ k0_t1 : Fin k0_t1_loop.trips, ∀ a, (k0_off2 k0_t1) a + S1x1x196x384.size a ≤ S1x8x196x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x196x384.size a ≤ S8x64x196x384.size a
  hwx0_0 : ∀ i : grid0.Coords, EltTy.bits .f32 = 32 ∨ (Rect.block (s := S8x64x196x384) S1x8x196x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x384.size a ≤ S1152x384.size a
  hwx0_1 : ∀ i : grid0.Coords, EltTy.bits .f32 = 32 ∨ (Rect.block (s := S1152x384) S1152x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152.size a ≤ S1152.size a
  hwx0_2 : ∀ i : grid0.Coords, EltTy.bits .f32 = 32 ∨ (Rect.block (s := S1152) S1152.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x196x384.size a ≤ S8x64x196x384.size a
  hwx0_5 : ∀ i : grid0.Coords, EltTy.bits .f32 = 32 ∨ (Rect.block (s := S8x64x196x384) S1x8x196x384.size (cc0_transform_5 i) (hinb0_5 i)).WholeWords (EltTy.packing .f32)

variable [Facts₀]

def dot_S1568x384_S1152x384_S1568x1152_1_1_0_0_n_n : DotDims S1568x384 S1152x384 S1568x1152 where
  lhsContracting := [1]
  rhsContracting := [1]
  lhsNonContracting := [0]
  rhsNonContracting := [0]
  lhsBatch := []
  rhsBatch := []
  wf := dot_S1568x384_S1152x384_S1568x1152_1_1_0_0_n_n_wf
def dot_S6x196x64_S6x196x64_S6x196x196_2_2_1_1_0_0 : DotDims S6x196x64 S6x196x64 S6x196x196 where
  lhsContracting := [2]
  rhsContracting := [2]
  lhsNonContracting := [1]
  rhsNonContracting := [1]
  lhsBatch := [0]
  rhsBatch := [0]
  wf := dot_S6x196x64_S6x196x64_S6x196x196_2_2_1_1_0_0_wf
def dot_S6x196x196_S6x196x64_S6x196x64_2_1_1_2_0_0 : DotDims S6x196x196 S6x196x64 S6x196x64 where
  lhsContracting := [2]
  rhsContracting := [1]
  lhsNonContracting := [1]
  rhsNonContracting := [2]
  lhsBatch := [0]
  rhsBatch := [0]
  wf := dot_S6x196x196_S6x196x64_S6x196x64_2_1_1_2_0_0_wf
def dot_S196x384_S384x384_S196x384_1_1_0_0_n_n : DotDims S196x384 S384x384 S196x384 where
  lhsContracting := [1]
  rhsContracting := [1]
  lhsNonContracting := [0]
  rhsNonContracting := [0]
  lhsBatch := []
  rhsBatch := []
  wf := dot_S196x384_S384x384_S196x384_1_1_0_0_n_n_wf

abbrev win0_0 : Pipeline.Window sig grid0 :=
  Pipeline.Window.ofSpec (Memref.whole main_arg0) S1x8x196x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1152x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8x196x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x196x384 : Shape := ⟨4, ![8, 64, 196, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S8x64x196x1152 : Shape := ⟨4, ![8, 64, 196, 1152]⟩
abbrev S1x1x1x1152 : Shape := ⟨4, ![1, 1, 1, 1152]⟩
abbrev S8x64x196x3x6x64 : Shape := ⟨6, ![8, 64, 196, 3, 6, 64]⟩
abbrev S3x8x6x64x196x64 : Shape := ⟨6, ![3, 8, 6, 64, 196, 64]⟩
abbrev S1x8x6x64x196x64 : Shape := ⟨6, ![1, 8, 6, 64, 196, 64]⟩
abbrev S8x6x64x196x64 : Shape := ⟨5, ![8, 6, 64, 196, 64]⟩
abbrev S_ : Shape := ⟨0, ![]⟩
abbrev S8x6x64x196x196 : Shape := ⟨5, ![8, 6, 64, 196, 196]⟩
abbrev S8x6x64x196 : Shape := ⟨4, ![8, 6, 64, 196]⟩
abbrev S8x6x64x196x1 : Shape := ⟨5, ![8, 6, 64, 196, 1]⟩
abbrev S8x64x196x64x6 : Shape := ⟨5, ![8, 64, 196, 64, 6]⟩
abbrev S1x1x1x384 : Shape := ⟨4, ![1, 1, 1, 384]⟩

abbrev nBuf : Space → Nat
  | .hbm => 42
  | .vmem => 0
  | .smem => 0
  | _ => 0

abbrev bufTy : (tb : Table) → Fin (tcTables nBuf tb) → BufTy
  | .hbm, ⟨0, _⟩ => ⟨S8x64x196x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S8x64x196x1152, .f32⟩
  | .hbm, ⟨6, _⟩ => ⟨S1x1x1x1152, .f32⟩
  | .hbm, ⟨7, _⟩ => ⟨S8x64x196x1152, .f32⟩
  | .hbm, ⟨8, _⟩ => ⟨S8x64x196x1152, .f32⟩
  | .hbm, ⟨9, _⟩ => ⟨S8x64x196x3x6x64, .f32⟩
  | .hbm, ⟨10, _⟩ => ⟨S3x8x6x64x196x64, .f32⟩
  | .hbm, ⟨11, _⟩ => ⟨S1x8x6x64x196x64, .f32⟩
  | .hbm, ⟨12, _⟩ => ⟨S8x6x64x196x64, .f32⟩
  | .hbm, ⟨13, _⟩ => ⟨S1x8x6x64x196x64, .f32⟩
  | .hbm, ⟨14, _⟩ => ⟨S8x6x64x196x64, .f32⟩
  | .hbm, ⟨15, _⟩ => ⟨S1x8x6x64x196x64, .f32⟩
  | .hbm, ⟨16, _⟩ => ⟨S8x6x64x196x64, .f32⟩
  | .hbm, ⟨17, _⟩ => ⟨S_, .f32⟩
  | .hbm, ⟨18, _⟩ => ⟨S8x6x64x196x64, .f32⟩
  | .hbm, ⟨19, _⟩ => ⟨S8x6x64x196x64, .f32⟩
  | .hbm, ⟨20, _⟩ => ⟨S8x6x64x196x196, .f32⟩
  | .hbm, ⟨21, _⟩ => ⟨S_, .f32⟩
  | .hbm, ⟨22, _⟩ => ⟨S8x6x64x196, .f32⟩
  | .hbm, ⟨23, _⟩ => ⟨S_, .f32⟩
  | .hbm, ⟨24, _⟩ => ⟨S8x6x64x196, .f32⟩
  | .hbm, ⟨25, _⟩ => ⟨S8x6x64x196, .f32⟩
  | .hbm, ⟨26, _⟩ => ⟨S8x6x64x196x1, .f32⟩
  | .hbm, ⟨27, _⟩ => ⟨S8x6x64x196x196, .f32⟩
  | .hbm, ⟨28, _⟩ => ⟨S8x6x64x196x196, .f32⟩
  | .hbm, ⟨29, _⟩ => ⟨S8x6x64x196x196, .f32⟩
  | .hbm, ⟨30, _⟩ => ⟨S_, .f32⟩
  | .hbm, ⟨31, _⟩ => ⟨S8x6x64x196, .f32⟩
  | .hbm, ⟨32, _⟩ => ⟨S8x6x64x196x1, .f32⟩
  | .hbm, ⟨33, _⟩ => ⟨S8x6x64x196x196, .f32⟩
  | .hbm, ⟨34, _⟩ => ⟨S8x6x64x196x196, .f32⟩
  | .hbm, ⟨35, _⟩ => ⟨S8x6x64x196x64, .f32⟩
  | .hbm, ⟨36, _⟩ => ⟨S8x64x196x64x6, .f32⟩
  | .hbm, ⟨37, _⟩ => ⟨S8x64x196x384, .f32⟩
  | .hbm, ⟨38, _⟩ => ⟨S8x64x196x384, .f32⟩
  | .hbm, ⟨39, _⟩ => ⟨S1x1x1x384, .f32⟩
  | .hbm, ⟨40, _⟩ => ⟨S8x64x196x384, .f32⟩
  | .hbm, ⟨41, _⟩ => ⟨S8x64x196x384, .f32⟩
  | _, _ => ⟨S8x64x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S1152_S1x1x1x1152_3 : S1152.BroadcastsInDim S1x1x1x1152 (![3] : Fin 1 → Fin S1x1x1x1152.rank)
  bcast_S1x1x1x1152_S8x64x196x1152_0_1_2_3 : S1x1x1x1152.BroadcastsInDim S8x64x196x1152 (![0, 1, 2, 3] : Fin 4 → Fin S8x64x196x1152.rank)
  shapeCasts_S8x64x196x1152_S8x64x196x3x6x64 : S8x64x196x1152.ShapeCasts S8x64x196x3x6x64
  transposes_S8x64x196x3x6x64_S3x8x6x64x196x64_3_0_4_1_2_5 : S8x64x196x3x6x64.Transposes [3, 0, 4, 1, 2, 5] S3x8x6x64x196x64
  slices_S3x8x6x64x196x64_S1x8x6x64x196x64_0_0_0_0_0_0 : S3x8x6x64x196x64.Slices ![0, 0, 0, 0, 0, 0] S1x8x6x64x196x64
  shapeCasts_S1x8x6x64x196x64_S8x6x64x196x64 : S1x8x6x64x196x64.ShapeCasts S8x6x64x196x64
  slices_S3x8x6x64x196x64_S1x8x6x64x196x64_1_0_0_0_0_0 : S3x8x6x64x196x64.Slices ![1, 0, 0, 0, 0, 0] S1x8x6x64x196x64
  slices_S3x8x6x64x196x64_S1x8x6x64x196x64_2_0_0_0_0_0 : S3x8x6x64x196x64.Slices ![2, 0, 0, 0, 0, 0] S1x8x6x64x196x64
  bcast_S_S8x6x64x196x64 : S_.BroadcastsInDim S8x6x64x196x64 (![] : Fin 0 → Fin S8x6x64x196x64.rank)
  reducesTo_S8x6x64x196x196_S8x6x64x196_d4 : S8x6x64x196x196.ReducesTo [4] S8x6x64x196
  h_S_ : 0 < S_.numel
  bcast_S_S8x6x64x196 : S_.BroadcastsInDim S8x6x64x196 (![] : Fin 0 → Fin S8x6x64x196.rank)
  bcast_S8x6x64x196_S8x6x64x196x1_0_1_2_3 : S8x6x64x196.BroadcastsInDim S8x6x64x196x1 (![0, 1, 2, 3] : Fin 4 → Fin S8x6x64x196x1.rank)
  bcast_S8x6x64x196x1_S8x6x64x196x196_0_1_2_3_4 : S8x6x64x196x1.BroadcastsInDim S8x6x64x196x196 (![0, 1, 2, 3, 4] : Fin 5 → Fin S8x6x64x196x196.rank)
  transposes_S8x6x64x196x64_S8x64x196x64x6_0_2_3_4_1 : S8x6x64x196x64.Transposes [0, 2, 3, 4, 1] S8x64x196x64x6
  shapeCasts_S8x64x196x64x6_S8x64x196x384 : S8x64x196x64x6.ShapeCasts S8x64x196x384
  bcast_S384_S1x1x1x384_3 : S384.BroadcastsInDim S1x1x1x384 (![3] : Fin 1 → Fin S1x1x1x384.rank)
  bcast_S1x1x1x384_S8x64x196x384_0_1_2_3 : S1x1x1x384.BroadcastsInDim S8x64x196x384 (![0, 1, 2, 3] : Fin 4 → Fin S8x64x196x384.rank)
  dot_S8x64x196x384_S1152x384_S8x64x196x1152_3_1_012_0_n_n_wf : DotDims.WF S8x64x196x384 S1152x384 S8x64x196x1152 [3] [1] [0, 1, 2] [0] [] []
  dot_S8x6x64x196x64_S8x6x64x196x64_S8x6x64x196x196_4_4_3_3_012_012_wf : DotDims.WF S8x6x64x196x64 S8x6x64x196x64 S8x6x64x196x196 [4] [4] [3] [3] [0, 1, 2] [0, 1, 2]
  dot_S8x6x64x196x196_S8x6x64x196x64_S8x6x64x196x64_4_3_3_4_012_012_wf : DotDims.WF S8x6x64x196x196 S8x6x64x196x64 S8x6x64x196x64 [4] [3] [3] [4] [0, 1, 2] [0, 1, 2]
  dot_S8x64x196x384_S384x384_S8x64x196x384_3_1_012_0_n_n_wf : DotDims.WF S8x64x196x384 S384x384 S8x64x196x384 [3] [1] [0, 1, 2] [0] [] []

variable [Facts₀]

def dot_S8x64x196x384_S1152x384_S8x64x196x1152_3_1_012_0_n_n : DotDims S8x64x196x384 S1152x384 S8x64x196x1152 where
  lhsContracting := [3]
  rhsContracting := [1]
  lhsNonContracting := [0, 1, 2]
  rhsNonContracting := [0]
  lhsBatch := []
  rhsBatch := []
  wf := dot_S8x64x196x384_S1152x384_S8x64x196x1152_3_1_012_0_n_n_wf
def dot_S8x6x64x196x64_S8x6x64x196x64_S8x6x64x196x196_4_4_3_3_012_012 : DotDims S8x6x64x196x64 S8x6x64x196x64 S8x6x64x196x196 where
  lhsContracting := [4]
  rhsContracting := [4]
  lhsNonContracting := [3]
  rhsNonContracting := [3]
  lhsBatch := [0, 1, 2]
  rhsBatch := [0, 1, 2]
  wf := dot_S8x6x64x196x64_S8x6x64x196x64_S8x6x64x196x196_4_4_3_3_012_012_wf
def dot_S8x6x64x196x196_S8x6x64x196x64_S8x6x64x196x64_4_3_3_4_012_012 : DotDims S8x6x64x196x196 S8x6x64x196x64 S8x6x64x196x64 where
  lhsContracting := [4]
  rhsContracting := [3]
  lhsNonContracting := [3]
  rhsNonContracting := [4]
  lhsBatch := [0, 1, 2]
  rhsBatch := [0, 1, 2]
  wf := dot_S8x6x64x196x196_S8x6x64x196x64_S8x6x64x196x64_4_3_3_4_012_012_wf
def dot_S8x64x196x384_S384x384_S8x64x196x384_3_1_012_0_n_n : DotDims S8x64x196x384 S384x384 S8x64x196x384 where
  lhsContracting := [3]
  rhsContracting := [1]
  lhsNonContracting := [0, 1, 2]
  rhsNonContracting := [0]
  lhsBatch := []
  rhsBatch := []
  wf := dot_S8x64x196x384_S384x384_S8x64x196x384_3_1_012_0_n_n_wf

class Facts : Prop extends Facts₀ where

variable [Facts]
-- ==== Proof.AttnSpec.lean ====
/-
  Multi-head self-attention over one slice of 196 patches, written once as plain functions of
  indices on the extended reals, with no program in sight.

  From a slice `x` (196 rows of 384 channels) the projection `qkv` has 1152 columns: three parts
  (query, key, value) of 6 heads of 64 lanes, column `s·384 + h·64 + d`.  Per head, the score of
  rows `n, m` is the sum over lanes of (query · 1/8) · key; a row of scores is shifted by its
  maximum, exponentiated and divided by its sum; the head's output is that row of weights against
  the values.  The output projection contracts the 384 = 6·64 head outputs against a weight row.

  The two programs differ only in HOW they lay the 384 head outputs out before that last
  contraction: interleaved (`d·6 + h`) against the weights as given, or concatenated
  (`h·64 + d`) against weights whose columns were permuted to match.  `outKer_eq_outRef` says the
  two contractions are one sum, re-indexed along a bijection of the 384 channels: a fact of
  commutative addition, so it needs no finiteness.
-/
import Idealize.ShloMosaic.PureOps.Ideal
import Idealize.ShloMosaic.Lib.ValueIdx

noncomputable section

namespace Cert.Attn

open Idealize.ShloMosaic Idealize.ShloMosaic.ValueIdx

/-- Column of the 1152-wide projection holding part `s` (0 query, 1 key, 2 value), head `h`, lane `d`. -/
def col (s : Fin 3) (h : Fin 6) (d : Fin 64) : Fin 1152 :=
  ⟨s.val * 384 + h.val * 64 + d.val, by have := s.isLt; have := h.isLt; have := d.isLt; omega⟩

/-- Head and lane of a channel in the interleaved layout `c = d·6 + h`. -/
def hd6 (c : Fin 384) : Fin 6 := ⟨c.val % 6, Nat.mod_lt _ (by decide)⟩
def ln6 (c : Fin 384) : Fin 64 := ⟨c.val / 6, by have := c.isLt; omega⟩
/-- Head and lane of a channel in the concatenated layout `c = h·64 + d`. -/
def hd64 (c : Fin 384) : Fin 6 := ⟨c.val / 64, by have := c.isLt; omega⟩
def ln64 (c : Fin 384) : Fin 64 := ⟨c.val % 64, Nat.mod_lt _ (by decide)⟩
/-- The interleaved channel of a concatenated one: `h·64 + d ↦ d·6 + h`. -/
def perm (c : Fin 384) : Fin 384 := ⟨(c.val % 64) * 6 + c.val / 64, by have := c.isLt; omega⟩

/-- The query's scale 1/8 and the maximum's starting value -∞, as the patterns both programs print. -/
def scale : EReal := Ideal.ofBits .f32 0x3E000000#32
def negInf : EReal := Ideal.ofBits .f32 0xFF800000#32

/-- The projection of a slice: row `n` of `x` against row `o` of the weights, plus the bias. -/
def qkv (x : Fin 196 → Fin 384 → EReal) (Wq : Fin 1152 → Fin 384 → EReal) (bq : Fin 1152 → EReal)
    (n : Fin 196) (o : Fin 1152) : EReal :=
  (∑ c : Fin 384, x n c * Wq o c) + bq o

section Heads

variable (Q : Fin 196 → Fin 1152 → EReal)

/-- Score of rows `n`, `m` in head `h`. -/
def score (h : Fin 6) (n m : Fin 196) : EReal :=
  ∑ d : Fin 64, (Q n (col 0 h d) * scale) * Q m (col 1 h d)

/-- The largest score of row `n` in head `h`, from -∞. -/
def rowMax (h : Fin 6) (n : Fin 196) : EReal :=
  (Finset.univ : Finset (Fin 196)).fold max negInf (fun m => score Q h n m)

/-- Shifted exponentials, their row sum, and the softmax weight. -/
def ex (h : Fin 6) (n m : Fin 196) : EReal := Ideal.exp (score Q h n m - rowMax Q h n)
def rowSum (h : Fin 6) (n : Fin 196) : EReal := ∑ m : Fin 196, ex Q h n m
def prob (h : Fin 6) (n m : Fin 196) : EReal := Ideal.div (ex Q h n m) (rowSum Q h n)

/-- Head `h`'s output at row `n`, lane `d`. -/
def head (h : Fin 6) (n : Fin 196) (d : Fin 64) : EReal :=
  ∑ m : Fin 196, prob Q h n m * Q m (col 2 h d)

/-- The output projection over the INTERLEAVED layout of the head outputs. -/
def outRef (Wp : Fin 384 → Fin 384 → EReal) (bp : Fin 384 → EReal) (n : Fin 196) (co : Fin 384) : EReal :=
  (∑ c : Fin 384, head Q (hd6 c) n (ln6 c) * Wp co c) + bp co

/-- The output projection over the CONCATENATED layout, against weights `Wpm` laid out to match. -/
def outKer (Wpm : Fin 384 → Fin 384 → EReal) (bp : Fin 384 → EReal) (n : Fin 196) (co : Fin 384) : EReal :=
  (∑ c : Fin 384, head Q (hd64 c) n (ln64 c) * Wpm co c) + bp co

theorem perm_injective : Function.Injective perm := by
  intro a b h
  have h' : (a.val % 64) * 6 + a.val / 64 = (b.val % 64) * 6 + b.val / 64 := congrArg Fin.val h
  have := a.isLt; have := b.isLt
  exact Fin.ext (by omega)

theorem hd6_perm (c : Fin 384) : hd6 (perm c) = hd64 c :=
  Fin.ext (by have := c.isLt; show ((c.val % 64) * 6 + c.val / 64) % 6 = c.val / 64; omega)

theorem ln6_perm (c : Fin 384) : ln6 (perm c) = ln64 c :=
  Fin.ext (by have := c.isLt; show ((c.val % 64) * 6 + c.val / 64) / 6 = c.val % 64; omega)

/-- Concatenated head outputs against column-permuted weights are the interleaved head outputs against
    the weights as given: one sum over the 384 channels, re-indexed along `perm`. -/
theorem outKer_eq_outRef (Wp : Fin 384 → Fin 384 → EReal) (bp : Fin 384 → EReal) :
    outKer Q (fun co c => Wp co (perm c)) bp = outRef Q Wp bp := by
  funext n co
  unfold outKer outRef
  refine congrArg (fun s => s + bp co) ?_
  have hb : Function.Bijective perm := Finite.injective_iff_bijective.mp perm_injective
  rw [← hb.sum_comp (fun c => head Q (hd6 c) n (ln6 c) * Wp co c)]
  exact Finset.sum_congr rfl fun c _ => by rw [hd6_perm, ln6_perm]

end Heads

/-- The whole result array as one function of the five argument arrays: entry `(b, t, n, co)` is the
    attention output of slice `(b, t)` at row `n`, channel `co`. -/
def G (X : (⟨4, ![8, 64, 196, 384]⟩ : Shape).Idx → EReal) (Wq : (⟨2, ![1152, 384]⟩ : Shape).Idx → EReal)
    (bq : (⟨1, ![1152]⟩ : Shape).Idx → EReal) (Wp : (⟨2, ![384, 384]⟩ : Shape).Idx → EReal)
    (bp : (⟨1, ![384]⟩ : Shape).Idx → EReal) : (⟨4, ![8, 64, 196, 384]⟩ : Shape).Idx → EReal :=
  fun i => outRef (qkv (fun n c => X (ix4 (i 0 : Fin 8) (i 1 : Fin 64) n c)) (fun o c => Wq (ix2 o c)) (fun o => bq (ix1 o)))
    (fun co c => Wp (ix2 co c)) (fun co => bp (ix1 co)) (i 2 : Fin 196) (i 3 : Fin 384)

end Cert.Attn

end
-- ==== Proof.KerBlock.lean ====
/-
  What one grid point leaves in its output block, as ONE function of the point's input blocks.

  The body first fills a scratch of 8 slices with the projection of its whole input block, then
  runs 8 trips; trip `k` reads slice `k` of the scratch and stores one [196, 384] slice into row
  `k` of the output block.  So the stores into the output block are exactly the eight trips'
  pieces, their rectangles are the eight rows of the block, and entry `(0, k, n, co)` of the block
  is the per-slice payload of slice `k` of the projection, at `(n, co)`.
-/
import proofs.«167384_j91293824843977_2_alg».proof.Proof.Gen.KernelIdeal.Value
import Idealize.ShloMosaic.Lib.Pipeline.Value
import Idealize.ShloMosaic.Lib.ValueIdx

set_option maxRecDepth 16384

noncomputable section

namespace Cert.KernelIdeal.Blk

open Cert.KernelIdeal Cert.KernelIdeal.Gen Idealize.ShloMosaic Idealize.ShloMosaic.TcCoe Idealize.ShloMosaic.ValueIdx
open Idealize.SL.Sem

variable {F : FTy → Type} [FloatOps F]

/-- Slice `k` of the scratch, and row `k` of the output block. -/
abbrev slabRect (k : Fin k0_t1_loop.trips) : Rect S8x196x1152 :=
  Rect.unit (s := S8x196x1152) (k0_off1 k) S1x196x1152.size (k0_off1_inb k)
abbrev sliceRect (k : Fin k0_t1_loop.trips) : Rect S1x8x196x384 :=
  Rect.unit (s := S1x8x196x384) (k0_off2 k) S1x1x196x384.size (k0_off2_inb k)

/-- The piece trip `k` stores: the per-slice payload of slice `k` of the projection of the input block. -/
def tripPiece (x0 : Vec F S1x8x196x384 .f32) (x1 : Vec F S1152x384 .f32) (x2 : Vec F S1152 .f32)
    (x3 : Vec F S384x384 .f32) (x4 : Vec F S384 .f32) (k : Fin k0_t1_loop.trips) :
    View.Piece (Elt F) S1x8x196x384 .f32 :=
  ⟨sliceRect k, k0_pay2 x3 x4 (View.ld (Val := Elt F) (k0_pay1 x1 x2 x0) (slabRect k))⟩

/-- A piece of the trips before `k` is a piece of one trip. -/
theorem mem_pb (𝒱 : Variants) (c : Dev nD) (bd : Option 𝒱.V) (i : grid0.Coords) (arg2 : Memref sig .tc .vmem S1x8x196x384 .f32) (harg2 : arg2.IsWhole) (arg3 : Memref sig .tc .vmem S1152x384 .f32) (harg3 : arg3.IsWhole) (arg4 : Memref sig .tc .vmem S1152 .f32) (harg4 : arg4.IsWhole) (arg5 : Memref sig .tc .vmem S384x384 .f32) (harg5 : arg5.IsWhole) (arg6 : Memref sig .tc .vmem S384 .f32) (harg6 : arg6.IsWhole) (arg7 : Memref sig .tc .vmem S1x8x196x384 .f32) (harg7 : arg7.IsWhole) (arg8 : Memref sig .tc .vmem S8x196x1152 .f32) (harg8 : arg8.IsWhole) (v2 : Vec F S384x384 .f32) (v6 : Vec F S384 .f32) (X_arg8 : BufTy.Contents (Elt F) arg8.view.ty) :
    ∀ (k : ℕ), k ≤ k0_t1_loop.trips → ∀ p, p ∈ pb_k0_t1 (F := F) 𝒱 c bd i arg2 harg2 arg3 harg3 arg4 harg4 arg5 harg5 arg6 harg6 arg7 harg7 arg8 harg8 v2 v6 X_arg8 k →
      ∃ j : Fin k0_t1_loop.trips, p ∈ tripL_k0_t1 (F := F) 𝒱 c bd i arg2 harg2 arg3 harg3 arg4 harg4 arg5 harg5 arg6 harg6 arg7 harg7 arg8 harg8 v2 v6 X_arg8 j
  | 0, _, p, hp => by rw [pb_k0_t1] at hp; exact absurd hp List.not_mem_nil
  | k + 1, hk, p, hp => by
    rw [show pb_k0_t1 (F := F) 𝒱 c bd i arg2 harg2 arg3 harg3 arg4 harg4 arg5 harg5 arg6 harg6 arg7 harg7 arg8 harg8 v2 v6 X_arg8 (k + 1)
          = tripL_k0_t1 (F := F) 𝒱 c bd i arg2 harg2 arg3 harg3 arg4 harg4 arg5 harg5 arg6 harg6 arg7 harg7 arg8 harg8 v2 v6 X_arg8 ⟨k, hk⟩ ++ pb_k0_t1 (F := F) 𝒱 c bd i arg2 harg2 arg3 harg3 arg4 harg4 arg5 harg5 arg6 harg6 arg7 harg7 arg8 harg8 v2 v6 X_arg8 k
        from pb_k0_t1_succ (F := F) 𝒱 c bd i arg2 harg2 arg3 harg3 arg4 harg4 arg5 harg5 arg6 harg6 arg7 harg7 arg8 harg8 v2 v6 X_arg8 ⟨k, hk⟩] at hp
    rcases List.mem_append.mp hp with h | h
    · exact ⟨⟨k, hk⟩, h⟩
    · exact mem_pb 𝒱 c bd i arg2 harg2 arg3 harg3 arg4 harg4 arg5 harg5 arg6 harg6 arg7 harg7 arg8 harg8 v2 v6 X_arg8 k (Nat.le_of_lt hk) p h

/-- One trip stores one piece: its payload of the scratch's slice, into its row of the block. -/
theorem tripL_eq (𝒱 : Variants) (c : Dev nD) (bd : Option 𝒱.V) (i : grid0.Coords) (arg2 : Memref sig .tc .vmem S1x8x196x384 .f32) (harg2 : arg2.IsWhole) (arg3 : Memref sig .tc .vmem S1152x384 .f32) (harg3 : arg3.IsWhole) (arg4 : Memref sig .tc .vmem S1152 .f32) (harg4 : arg4.IsWhole) (arg5 : Memref sig .tc .vmem S384x384 .f32) (harg5 : arg5.IsWhole) (arg6 : Memref sig .tc .vmem S384 .f32) (harg6 : arg6.IsWhole) (arg7 : Memref sig .tc .vmem S1x8x196x384 .f32) (harg7 : arg7.IsWhole) (arg8 : Memref sig .tc .vmem S8x196x1152 .f32) (harg8 : arg8.IsWhole) (v2 : Vec F S384x384 .f32) (v6 : Vec F S384 .f32) (X_arg8 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 v2 v6 X_arg8 k
      = [⟨sliceRect k, k0_pay2 v2 v6 (View.readAt (Elt F) arg8.view (slabRect k).toLoadRect X_arg8)⟩] := by
  unfold tripL_k0_t1 trip_k0_t1
  rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Every store of the body into the output block is one trip's piece, over the block's own inputs. -/
theorem run_pieces (c : Dev nD) (i : grid0.Coords) (arg2 : Memref sig .tc .vmem S1x8x196x384 .f32) (harg2 : arg2.IsWhole) (arg3 : Memref sig .tc .vmem S1152x384 .f32) (harg3 : arg3.IsWhole) (arg4 : Memref sig .tc .vmem S1152 .f32) (harg4 : arg4.IsWhole) (arg5 : Memref sig .tc .vmem S384x384 .f32) (harg5 : arg5.IsWhole) (arg6 : Memref sig .tc .vmem S384 .f32) (harg6 : arg6.IsWhole) (arg7 : Memref sig .tc .vmem S1x8x196x384 .f32) (harg7 : arg7.IsWhole) (arg8 : Memref sig .tc .vmem S8x196x1152 .f32) (harg8 : arg8.IsWhole)
    (x0 : Vec F S1x8x196x384 .f32) (x1 : Vec F S1152x384 .f32) (x2 : Vec F S1152 .f32) (x3 : Vec F S384x384 .f32) (x4 : Vec F S384 .f32) :
    ∀ p ∈ (kernelRun0_A (F := F) c i arg2 harg2 arg3 harg3 arg4 harg4 arg5 harg5 arg6 harg6 arg7 harg7 arg8 harg8 x0 x1 x2 x3 x4).1, ∃ j : Fin k0_t1_loop.trips, p = tripPiece x0 x1 x2 x3 x4 j := by
  unfold kernelRun0_A
  dsimp only
  intro p hp
  obtain ⟨j, hj⟩ := mem_pb _ _ _ _ _ _ _ _ _ _ _ _ _ _ _ _ _ _ _ _ _ _ (le_refl _) p hp
  rw [tripL_eq, List.mem_singleton] at hj
  refine ⟨j, ?_⟩
  rw [hj]
  unfold tripPiece
  have h3 : View.readAt (Elt F) arg5.view (Rect.unit ![0, 0] ![384, 384] inb_S384x384_S384x384_0_0).toLoadRect (harg5.unread x3) = x3 := by
    rw [View.readAt_eq_ld, harg5.read_unread]; exact View.ld_unit_zero (S := S384x384) hz2 _ x3
  have h4 : View.readAt (Elt F) arg6.view (Rect.unit ![0] ![384] inb_S384_S384_0).toLoadRect (harg6.unread x4) = x4 := by
    rw [View.readAt_eq_ld, harg6.read_unread]; exact View.ld_unit_zero (S := S384) hz1 _ x4
  have h8 : arg8.view.read (Elt F) (arg8.view.writes (Elt F) arg8.view.junk (kernelRun0_A.sl.HS0_1 c arg2 harg2 arg3 harg3 arg4 harg4 x0 x1 x2))
      = k0_pay1 x1 x2 x0 := by
    unfold kernelRun0_A.sl.HS0_1
    rw [View.read_writes_eq_canon _ _ _ (fun y => ⟨_, List.mem_singleton_self _, View.mem_set_unit_zero hz3 inb_S8x196x1152_S8x196x1152_0_0_0 y⟩),
      View.canon_unit_zero hz3]
    simp only [View.readAt_eq_ld, harg2.read_unread, harg3.read_unread, harg4.read_unread,
      View.ld_unit_zero (S := S1152x384) hz2, View.ld_unit_zero (S := S1152) hz1, View.ld_unit_zero (S := S1x8x196x384) hz4]
  rw [h3, h4, View.readAt_eq_ld, h8]

/-- The loop makes eight trips. -/
theorem trips_eq : k0_t1_loop.trips = 8 := by decide +kernel

/-- The trip that stores the row of the block an index lies in. -/
def tripOf (y : S1x8x196x384.Idx) : Fin k0_t1_loop.trips := ⟨(y 1).val, by rw [trips_eq]; exact (y 1).isLt⟩

/-- THE BLOCK AT AN INDEX: entry `(0, k, n, co)` of what the body leaves is the per-slice payload, at `(n, co)`,
    of slice `k` of the projection of the input block — each trip's piece restricts this one function to its row. -/
theorem out_apply (c : Dev nD) (i : grid0.Coords) (arg2 : Memref sig .tc .vmem S1x8x196x384 .f32) (harg2 : arg2.IsWhole) (arg3 : Memref sig .tc .vmem S1152x384 .f32) (harg3 : arg3.IsWhole) (arg4 : Memref sig .tc .vmem S1152 .f32) (harg4 : arg4.IsWhole) (arg5 : Memref sig .tc .vmem S384x384 .f32) (harg5 : arg5.IsWhole) (arg6 : Memref sig .tc .vmem S384 .f32) (harg6 : arg6.IsWhole) (arg7 : Memref sig .tc .vmem S1x8x196x384 .f32) (harg7 : arg7.IsWhole) (arg8 : Memref sig .tc .vmem S8x196x1152 .f32) (harg8 : arg8.IsWhole)
    (x0 : Vec F S1x8x196x384 .f32) (x1 : Vec F S1152x384 .f32) (x2 : Vec F S1152 .f32) (x3 : Vec F S384x384 .f32) (x4 : Vec F S384 .f32) (y : S1x8x196x384.Idx) :
    out0_A_5 (F := F) c i arg2 harg2 arg3 harg3 arg4 harg4 arg5 harg5 arg6 harg6 arg7 harg7 arg8 harg8 x0 x1 x2 x3 x4 y
      = k0_pay2 x3 x4 (View.ld (Val := Elt F) (k0_pay1 x1 x2 x0) (slabRect (tripOf y)))
          (ix4 (0 : Fin 1) (0 : Fin 1) (y 2 : Fin 196) (y 3 : Fin 384)) := by
  unfold out0_A_5
  rw [View.read_writes_eq_canon _ _ _ (cover0_A_5 c i arg2 harg2 arg3 harg3 arg4 harg4 arg5 harg5 arg6 harg6 arg7 harg7 arg8 harg8 x0 x1 x2 x3 x4)]
  refine View.canon_apply_of_pieces (fun y : S1x8x196x384.Idx =>
      k0_pay2 x3 x4 (View.ld (Val := Elt F) (k0_pay1 x1 x2 x0) (slabRect (tripOf y)))
        (ix4 (0 : Fin 1) (0 : Fin 1) (y 2 : Fin 196) (y 3 : Fin 384))) _ ?_ y (cover0_A_5 c i arg2 harg2 arg3 harg3 arg4 harg4 arg5 harg5 arg6 harg6 arg7 harg7 arg8 harg8 x0 x1 x2 x3 x4 y)
  intro p hp x
  obtain ⟨j, rfl⟩ := run_pieces c i arg2 harg2 arg3 harg3 arg4 harg4 arg5 harg5 arg6 harg6 arg7 harg7 arg8 harg8 x0 x1 x2 x3 x4 p hp
  have hoff := k0_off2_eq j
  have h0 : (x 0).val < 1 := (x 0).isLt
  have h1 : (x 1).val < 1 := (x 1).isLt
  have e1 : tripOf ((sliceRect j).emb x) = j := Fin.ext (by
    show k0_off2 j 1 + 1 * (x 1).val = j.val
    rw [hoff]; show j.val + 1 * (x 1).val = j.val; omega)
  have e2 : (ix4 (0 : Fin 1) (0 : Fin 1) ((sliceRect j).emb x 2 : Fin 196) ((sliceRect j).emb x 3 : Fin 384) : S1x1x196x384.Idx) = x := by
    funext a; apply Fin.ext
    match a with
    | ⟨0, _⟩ => show 0 = (x 0).val; omega
    | ⟨1, _⟩ => show 0 = (x 1).val; omega
    | ⟨2, _⟩ => show k0_off2 j 2 + 1 * (x 2).val = (x 2).val; rw [hoff]; show 0 + 1 * (x 2).val = (x 2).val; omega
    | ⟨3, _⟩ => show k0_off2 j 3 + 1 * (x 3).val = (x 3).val; rw [hoff]; show 0 + 1 * (x 3).val = (x 3).val; omega
  show k0_pay2 x3 x4 (View.ld (Val := Elt F) (k0_pay1 x1 x2 x0) (slabRect j)) x
    = k0_pay2 x3 x4 (View.ld (Val := Elt F) (k0_pay1 x1 x2 x0) (slabRect (tripOf ((sliceRect j).emb x))))
        (ix4 (0 : Fin 1) (0 : Fin 1) ((sliceRect j).emb x 2 : Fin 196) ((sliceRect j).emb x 3 : Fin 384))
  rw [e1, e2]

/-- A slice of the scratch read at `(0, n, o)` is the scratch at `(k, n, o)`. -/
theorem slab_apply (P : S8x196x1152.Idx → Elt F .f32) (k : Fin k0_t1_loop.trips) (n : Fin 196) (o : Fin 1152) :
    View.ld (Val := Elt F) P (slabRect k) (ix3 (0 : Fin 1) n o)
      = P (ix3 (⟨k.val, lt_of_lt_of_eq k.isLt trips_eq⟩ : Fin 8) n o) := by
  show P ((slabRect k).idx (ix3 (0 : Fin 1) n o)) = _
  refine congrArg P ?_
  have hoff := k0_off1_eq k
  funext a; apply Fin.ext
  match a with
  | ⟨0, _⟩ => show k0_off1 k 0 + 1 * 0 = k.val; rw [hoff]; show k.val + 1 * 0 = k.val; omega
  | ⟨1, _⟩ => show k0_off1 k 1 + 1 * n.val = n.val; rw [hoff]; show 0 + 1 * n.val = n.val; omega
  | ⟨2, _⟩ => show k0_off1 k 2 + 1 * o.val = o.val; rw [hoff]; show 0 + 1 * o.val = o.val; omega

end Cert.KernelIdeal.Blk

end
-- ==== Proof.HostGlue.lean ====
/-
  The weights the region finds for the output projection.

  Before the region the host reshapes W_proj [384, 384] to [384, 64, 6], swaps the last two axes and
  flattens back: column `h·64 + d` of the result is column `d·6 + h` of W_proj.  The other four
  arguments reach the region untouched.
-/
import proofs.«167384_j91293824843977_2_alg».proof.Proof.AttnSpec
import proofs.«167384_j91293824843977_2_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The permuted weights as the host operations' term of W_proj. -/
theorem V_main_v2 (c : Dev nD) :
    (V m c main_v2 : S384x384.Idx → Elt F .f32)
      = shapeCast S384x384 (transpose S384x6x64 [0, 2, 1]
          (shapeCast S384x64x6 (m ((c : Thread nD τ).loc main_arg3) : S384x384.Idx → Elt F .f32) shapeCasts_S384x384_S384x64x6)
          transposes_S384x64x6_S384x6x64_0_2_1) shapeCasts_S384x6x64_S384x384 := by
  dsimp only [Gen.V, Gen.hostOps0]
  after_results
  rfl

/-- Column `c` of the permuted weights is column `perm c` of W_proj. -/
theorem V_main_v2_apply (c : Dev nD) (co cc : Fin 384) :
    (V m c main_v2 : S384x384.Idx → Elt F .f32) (ix2 co cc)
      = (m ((c : Thread nD τ).loc main_arg3) : S384x384.Idx → Elt F .f32) (ix2 co (Cert.Attn.perm cc)) := by
  rw [V_main_v2]
  have hc := cc.isLt
  refine (shapeCast_apply _ shapeCasts_S384x6x64_S384x384 (ix2 co cc) (ix3 co (Cert.Attn.hd64 cc) (Cert.Attn.ln64 cc)) ?_).trans ?_
  · rw [Shape.rowMajor_val_three, Shape.rowMajor_val_two]
    show (co.val * 6 + cc.val / 64) * 64 + cc.val % 64 = co.val * 384 + cc.val
    omega
  refine (transpose_apply [0, 2, 1] _ transposes_S384x64x6_S384x6x64_0_2_1 (ix3 co (Cert.Attn.hd64 cc) (Cert.Attn.ln64 cc)) (ix3 co (Cert.Attn.ln64 cc) (Cert.Attn.hd64 cc)) ?_).trans ?_
  · intro b
    match b with
    | ⟨0, _⟩ => rfl
    | ⟨1, _⟩ => rfl
    | ⟨2, _⟩ => rfl
  refine shapeCast_apply _ shapeCasts_S384x384_S384x64x6 (ix3 co (Cert.Attn.ln64 cc) (Cert.Attn.hd64 cc)) (ix2 co (Cert.Attn.perm cc)) ?_
  rw [Shape.rowMajor_val_three, Shape.rowMajor_val_two]
  show co.val * 384 + ((cc.val % 64) * 6 + cc.val / 64) = (co.val * 64 + cc.val % 64) * 6 + cc.val / 64
  omega

end Cert.KernelIdeal.Glue

end
-- ==== Proof.KerPayload.lean ====
/-
  The kernel's two stored values, read at an index, are the specification's two functions.

  The kernel computes in two steps. First it projects the whole block of 8 slices at once: the block `[1, 8, 196, 384]`
  is flattened to 1568 rows (row `k·196 + n` is slice `k`, row `n`), multiplied against the rows of the `[1152, 384]`
  weights, the bias row is added, and the 1568 rows are cut back into 8 slices. Read at `(k, n, o)` that is
  `Cert.Attn.qkv` of slice `k` (`pay1_apply`). Then, per slice, it cuts the 1152 columns into query, key and value
  parts, splits each into 6 heads of 64 lanes and moves the head axis first; the batched product of the scaled query
  with the key over the lanes gives the scores, each row of scores is shifted by its maximum, exponentiated and divided
  by its sum, the batched product of these weights with the values over the rows gives the head outputs, which are
  moved back row-first and joined head after head (`h·64 + d`) into 384 channels; the product with the rows of the
  output weights plus the bias row is the result. Read at `(n, co)` that is `Cert.Attn.outKer` (`pay2_apply`).

  Everything is read at the extended reals, where a change of float format is the identity and every operation is the
  exact one. The file goes in layers: layout operations read at coordinates; a reduction along the last axis of a stack
  of matrices; the four matrix products as plain sums over the contracted coordinate; the attention stages (a part of
  the projection split into heads, the softmax of a stack of score matrices); then the two payloads, each a chain of
  these reads from the outermost operation inwards.
-/
import proofs.«167384_j91293824843977_2_alg».proof.Proof.AttnSpec
import proofs.«167384_j91293824843977_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Attn.Ker

open Idealize.ShloMosaic Idealize.ShloMosaic.ValueIdx Cert.KernelIdeal Cert.KernelIdeal.Gen

/-! ## Layout operations read at coordinates -/

section Layout
variable {α : Type}

/-- A stack `[a, b, c]` flattened to `[r, c]` (`r = a·b`) reads, at row `p = i·b + j`, the stack at `(i, j, ·)`. -/
theorem shapeCast_abc_rc_apply {a b c r : ℕ} (x : (⟨3, ![a, b, c]⟩ : Shape).Idx → α)
    (h : (⟨3, ![a, b, c]⟩ : Shape).ShapeCasts ⟨2, ![r, c]⟩) (i : Fin a) (j : Fin b) (e : Fin c) (p : Fin r)
    (hp : p.val = i.val * b + j.val) :
    shapeCast ⟨2, ![r, c]⟩ x h (ix2 p e) = x (ix3 i j e) :=
  shapeCast_apply x h _ _ (by
    rw [Shape.rowMajor_val_three, Shape.rowMajor_val_two]
    show (i.val * b + j.val) * c + e.val = p.val * c + e.val
    rw [hp])

/-- A matrix `[r, c]` cut into a stack `[a, b, c]` (`r = a·b`) reads, at `(i, j, ·)`, the matrix at row `p = i·b + j`. -/
theorem shapeCast_rc_abc_apply {a b c r : ℕ} (x : (⟨2, ![r, c]⟩ : Shape).Idx → α)
    (h : (⟨2, ![r, c]⟩ : Shape).ShapeCasts ⟨3, ![a, b, c]⟩) (i : Fin a) (j : Fin b) (e : Fin c) (p : Fin r)
    (hp : p.val = i.val * b + j.val) :
    shapeCast ⟨3, ![a, b, c]⟩ x h (ix3 i j e) = x (ix2 p e) :=
  shapeCast_apply x h _ _ (by
    rw [Shape.rowMajor_val_two, Shape.rowMajor_val_three]
    show p.val * c + e.val = (i.val * b + j.val) * c + e.val
    rw [hp])

/-- A matrix `[n, c]` whose columns are split `c = a·b` reads, at `(r, j, k)`, the matrix at column `q = j·b + k`. -/
theorem shapeCast_nc_nab_apply {n a b c : ℕ} (x : (⟨2, ![n, c]⟩ : Shape).Idx → α)
    (h : (⟨2, ![n, c]⟩ : Shape).ShapeCasts ⟨3, ![n, a, b]⟩) (hc : c = a * b) (r : Fin n) (j : Fin a) (k : Fin b) (q : Fin c)
    (hq : q.val = j.val * b + k.val) :
    shapeCast ⟨3, ![n, a, b]⟩ x h (ix3 r j k) = x (ix2 r q) :=
  shapeCast_apply x h _ _ (by
    rw [Shape.rowMajor_val_two, Shape.rowMajor_val_three]
    show r.val * c + q.val = (r.val * a + j.val) * b + k.val
    rw [hq, hc]; ring)

/-- The columns joined again: `[n, a, b]` as `[n, c]` reads, at column `q = j·b + k`, the stack at `(r, j, k)`. -/
theorem shapeCast_nab_nc_apply {n a b c : ℕ} (x : (⟨3, ![n, a, b]⟩ : Shape).Idx → α)
    (h : (⟨3, ![n, a, b]⟩ : Shape).ShapeCasts ⟨2, ![n, c]⟩) (hc : c = a * b) (r : Fin n) (j : Fin a) (k : Fin b) (q : Fin c)
    (hq : q.val = j.val * b + k.val) :
    shapeCast ⟨2, ![n, c]⟩ x h (ix2 r q) = x (ix3 r j k) :=
  shapeCast_apply x h _ _ (by
    rw [Shape.rowMajor_val_three, Shape.rowMajor_val_two]
    show (r.val * a + j.val) * b + k.val = r.val * c + q.val
    rw [hq, hc]; ring)

/-- A matrix given a trailing unit axis reads, at `(i, j, ·)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A trailing unit axis broadcast to `c` lanes reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The first two axes of a rank-3 array swapped: at `(j, i, k)` the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun e => match e with | ⟨0, _⟩ => rfl | ⟨1, _⟩ => rfl | ⟨2, _⟩ => rfl

/-- A matrix given two leading unit axes reads, at `(·, ·, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add, Nat.mul_one, Nat.add_zero])

end Layout

/-- A rounding to the sixteen-bit format is the identity on extended reals. -/
theorem bf16_apply {s : Shape} (a : FVec Ideal s .f32) (h : FTy.bits .bf16 < FTy.bits .f32) (i : s.Idx) :
    (truncf .bf16 a h : FVec Ideal s .bf16) i = a i := rfl

/-! ## A reduction along the last axis of a stack of matrices, and the three matrix products -/

section Reduce
variable {φ : FTy}

/-- Reducing `[n, a, b]` along its last axis: `(i, p)` with coordinate `k` put back is `(i, p, k)`. -/
theorem lift_last3 {n a b : ℕ} (h : (⟨3, ![n, a, b]⟩ : Shape).Reduces [2] (⟨2, ![n, a]⟩ : Shape)) (i : Fin n) (p : Fin a)
    (k : Fin ((⟨3, ![n, a, b]⟩ : Shape).size 2)) : h.lift (ix2 i p) k = ix3 i p (⟨k.val, k.isLt⟩ : Fin b) := by
  funext c; apply Fin.ext
  fin_cases c <;> rfl

/-- A lane sum along the last axis of `[n, a, b]`, at `(i, p)`, is the sum of that row. -/
theorem laneSum3_apply {n a b : ℕ} (v : FVec Ideal ⟨3, ![n, a, b]⟩ φ) (acc : BitVec φ.bits)
    (h : (⟨3, ![n, a, b]⟩ : Shape).Reduces [2] (⟨2, ![n, a]⟩ : Shape)) (hφ : FKind.Formats φ) (hacc : acc = FKind.add.neutral φ hφ)
    (i : Fin n) (p : Fin a) :
    multiReduction .add [2] ⟨2, ![n, a]⟩ v acc h hφ hacc (ix2 i p) = ∑ k : Fin b, v (ix3 i p k) :=
  (Ideal.multiReduction_add_single v acc h hφ hacc (ix2 i p)).trans
    (Finset.sum_congr rfl fun k _ => congrArg v (lift_last3 h i p k))

/-- A lane maximum along the last axis of `[n, a, b]`, at `(i, p)`, is the fold of `max` over that row from the
    accumulator's value. -/
theorem laneMax3_apply {n a b : ℕ} (v : FVec Ideal ⟨3, ![n, a, b]⟩ φ) (acc : BitVec φ.bits)
    (h : (⟨3, ![n, a, b]⟩ : Shape).Reduces [2] (⟨2, ![n, a]⟩ : Shape)) (hφ : FKind.Formats φ) (hacc : acc = FKind.maximumf.neutral φ hφ)
    (i : Fin n) (p : Fin a) :
    multiReduction .maximumf [2] ⟨2, ![n, a]⟩ v acc h hφ hacc (ix2 i p)
      = (Finset.univ : Finset (Fin b)).fold max (Ideal.ofBits φ acc) fun k => v (ix3 i p k) :=
  (Ideal.multiReduction_maximumf_single v acc h hφ hacc (ix2 i p)).trans
    (congrArg (fun f => Finset.fold max (Ideal.ofBits φ acc) f (Finset.univ : Finset (Fin b)))
      (funext fun k => congrArg v (lift_last3 h i p k)))

end Reduce

/-! ## The matrix products read at an index

Each is the zero accumulator plus the sum over the one contracted axis; the sum is re-indexed by that axis's coordinate
and the operands' indices are named by coordinates. -/

section Dots
variable {φ₁ φ₂ : FTy}

/-- A product of `[n, K]` by `[A, K]` contracting both second axes, into the zero accumulator, read at `(p, a)`: the sum
    over the contracted coordinate `k` of `l (p, k) · r (a, k)`; `hl0`, `hr0` say the kept coordinate of each operand's
    index is the result's row, respectively column. -/
theorem matmul_zero_rows_apply {n K A : ℕ} (D : DotDims ⟨2, ![n, K]⟩ ⟨2, ![A, K]⟩ ⟨2, ![n, A]⟩) (prec : Option ContractPrecision)
    (hlc : D.lhsContracting = [1]) (hrc : D.rhsContracting = [1])
    (hr : D.contr.rank = 1) (hs : D.contr.size ⟨0, by omega⟩ = K)
    (hl0 : ∀ j k, (D.lhsIdx j k 0).val = (j 0).val) (hr0 : ∀ j k, (D.rhsIdx j k 0).val = (j 1).val)
    (l : FVec Ideal ⟨2, ![n, K]⟩ φ₁) (r : FVec Ideal ⟨2, ![A, K]⟩ φ₂) (p : Fin n) (a : Fin A) :
    matmul D prec l r (constant ⟨2, ![n, A]⟩ .f32 0x00000000#32) (ix2 p a) = ∑ k : Fin K, l (ix2 p k) * r (ix2 a k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p a) ((contrEquiv1 D K hr hs).symm k) = ix2 p k := funext fun c => Fin.ext (by
    match c with
    | ⟨0, _⟩ => exact hl0 _ _
    | ⟨1, _⟩ => exact (D.lhsIdx_val_of_single hlc _ _).trans hk)
  have er : D.rhsIdx (ix2 p a) ((contrEquiv1 D K hr hs).symm k) = ix2 a k := funext fun c => Fin.ext (by
    match c with
    | ⟨0, _⟩ => exact hr0 _ _
    | ⟨1, _⟩ => exact (D.rhsIdx_val_of_single hrc _ _).trans hk)
  rw [el, er]

theorem lhs_qkvDot_0 (i : S1568x1152.Idx) (q : dot_S1568x384_S1152x384_S1568x1152_1_1_0_0_n_n.contr.Idx) :
    (dot_S1568x384_S1152x384_S1568x1152_1_1_0_0_n_n.lhsIdx i q 0).val = (i 0).val := by
  unfold DotDims.lhsIdx
  rw [dif_neg (show ¬(0 : Fin S1568x384.rank) ∈ dot_S1568x384_S1152x384_S1568x1152_1_1_0_0_n_n.lhsBatch by decide), dif_pos (show (0 : Fin S1568x384.rank) ∈ dot_S1568x384_S1152x384_S1568x1152_1_1_0_0_n_n.lhsNonContracting by decide)]
  rfl

theorem rhs_qkvDot_0 (i : S1568x1152.Idx) (q : dot_S1568x384_S1152x384_S1568x1152_1_1_0_0_n_n.contr.Idx) :
    (dot_S1568x384_S1152x384_S1568x1152_1_1_0_0_n_n.rhsIdx i q 0).val = (i 1).val := by
  unfold DotDims.rhsIdx
  rw [dif_neg (show ¬(0 : Fin S1152x384.rank) ∈ dot_S1568x384_S1152x384_S1568x1152_1_1_0_0_n_n.rhsBatch by decide), dif_pos (show (0 : Fin S1152x384.rank) ∈ dot_S1568x384_S1152x384_S1568x1152_1_1_0_0_n_n.rhsNonContracting by decide)]
  rfl

/-- The projection's product at `(p, a)`: row `p` of the left operand against row `a` of the right. -/
theorem qkvDot_apply (l : FVec Ideal S1568x384 φ₁) (r : FVec Ideal S1152x384 φ₂) (p : Fin 1568) (a : Fin 1152) :
    matmul dot_S1568x384_S1152x384_S1568x1152_1_1_0_0_n_n none l r (constant S1568x1152 .f32 0x00000000#32) (ix2 p a)
      = ∑ k : Fin 384, l (ix2 p k) * r (ix2 a k) :=
  matmul_zero_rows_apply dot_S1568x384_S1152x384_S1568x1152_1_1_0_0_n_n none rfl rfl rfl rfl lhs_qkvDot_0 rhs_qkvDot_0 l r p a

theorem lhs_outDot_0 (i : S196x384.Idx) (q : dot_S196x384_S384x384_S196x384_1_1_0_0_n_n.contr.Idx) :
    (dot_S196x384_S384x384_S196x384_1_1_0_0_n_n.lhsIdx i q 0).val = (i 0).val := by
  unfold DotDims.lhsIdx
  rw [dif_neg (show ¬(0 : Fin S196x384.rank) ∈ dot_S196x384_S384x384_S196x384_1_1_0_0_n_n.lhsBatch by decide), dif_pos (show (0 : Fin S196x384.rank) ∈ dot_S196x384_S384x384_S196x384_1_1_0_0_n_n.lhsNonContracting by decide)]
  rfl

theorem rhs_outDot_0 (i : S196x384.Idx) (q : dot_S196x384_S384x384_S196x384_1_1_0_0_n_n.contr.Idx) :
    (dot_S196x384_S384x384_S196x384_1_1_0_0_n_n.rhsIdx i q 0).val = (i 1).val := by
  unfold DotDims.rhsIdx
  rw [dif_neg (show ¬(0 : Fin S384x384.rank) ∈ dot_S196x384_S384x384_S196x384_1_1_0_0_n_n.rhsBatch by decide), dif_pos (show (0 : Fin S384x384.rank) ∈ dot_S196x384_S384x384_S196x384_1_1_0_0_n_n.rhsNonContracting by decide)]
  rfl

/-- The output projection's product at `(p, a)`. -/
theorem outDot_apply (l : FVec Ideal S196x384 φ₁) (r : FVec Ideal S384x384 φ₂) (p : Fin 196) (a : Fin 384) :
    matmul dot_S196x384_S384x384_S196x384_1_1_0_0_n_n none l r (constant S196x384 .f32 0x00000000#32) (ix2 p a)
      = ∑ k : Fin 384, l (ix2 p k) * r (ix2 a k) :=
  matmul_zero_rows_apply dot_S196x384_S384x384_S196x384_1_1_0_0_n_n none rfl rfl rfl rfl lhs_outDot_0 rhs_outDot_0 l r p a

theorem lhs_scoreDot_0 (i : S6x196x196.Idx) (q : dot_S6x196x64_S6x196x64_S6x196x196_2_2_1_1_0_0.contr.Idx) :
    (dot_S6x196x64_S6x196x64_S6x196x196_2_2_1_1_0_0.lhsIdx i q 0).val = (i 0).val := by
  unfold DotDims.lhsIdx
  rw [dif_pos (show (0 : Fin S6x196x64.rank) ∈ dot_S6x196x64_S6x196x64_S6x196x196_2_2_1_1_0_0.lhsBatch by decide)]
  rfl

theorem lhs_scoreDot_1 (i : S6x196x196.Idx) (q : dot_S6x196x64_S6x196x64_S6x196x196_2_2_1_1_0_0.contr.Idx) :
    (dot_S6x196x64_S6x196x64_S6x196x196_2_2_1_1_0_0.lhsIdx i q 1).val = (i 1).val := by
  unfold DotDims.lhsIdx
  rw [dif_neg (show ¬(1 : Fin S6x196x64.rank) ∈ dot_S6x196x64_S6x196x64_S6x196x196_2_2_1_1_0_0.lhsBatch by decide), dif_pos (show (1 : Fin S6x196x64.rank) ∈ dot_S6x196x64_S6x196x64_S6x196x196_2_2_1_1_0_0.lhsNonContracting by decide)]
  rfl

theorem rhs_scoreDot_0 (i : S6x196x196.Idx) (q : dot_S6x196x64_S6x196x64_S6x196x196_2_2_1_1_0_0.contr.Idx) :
    (dot_S6x196x64_S6x196x64_S6x196x196_2_2_1_1_0_0.rhsIdx i q 0).val = (i 0).val := by
  unfold DotDims.rhsIdx
  rw [dif_pos (show (0 : Fin S6x196x64.rank) ∈ dot_S6x196x64_S6x196x64_S6x196x196_2_2_1_1_0_0.rhsBatch by decide)]
  rfl

theorem rhs_scoreDot_1 (i : S6x196x196.Idx) (q : dot_S6x196x64_S6x196x64_S6x196x196_2_2_1_1_0_0.contr.Idx) :
    (dot_S6x196x64_S6x196x64_S6x196x196_2_2_1_1_0_0.rhsIdx i q 1).val = (i 2).val := by
  unfold DotDims.rhsIdx
  rw [dif_neg (show ¬(1 : Fin S6x196x64.rank) ∈ dot_S6x196x64_S6x196x64_S6x196x196_2_2_1_1_0_0.rhsBatch by decide), dif_pos (show (1 : Fin S6x196x64.rank) ∈ dot_S6x196x64_S6x196x64_S6x196x196_2_2_1_1_0_0.rhsNonContracting by decide)]
  rfl

/-- The batched score product at `(h, n, m)`: per head `h`, row `n` of the left operand against row `m` of the right,
    over the 64 lanes. -/
theorem scoreDot_apply (l : FVec Ideal S6x196x64 φ₁) (r : FVec Ideal S6x196x64 φ₂) (h : Fin 6) (n m : Fin 196) :
    matmul dot_S6x196x64_S6x196x64_S6x196x196_2_2_1_1_0_0 none l r (constant S6x196x196 .f32 0x00000000#32) (ix3 h n m)
      = ∑ d : Fin 64, l (ix3 h n d) * r (ix3 h m d) := by
  simp only [matmul]
  rw [Ideal.matmul_constant_zero_apply, ← Equiv.sum_comp (contrEquiv1 dot_S6x196x64_S6x196x64_S6x196x196_2_2_1_1_0_0 64 rfl rfl).symm]
  refine Finset.sum_congr rfl fun k _ => ?_
  have hk := contrEquiv1_symm_val dot_S6x196x64_S6x196x64_S6x196x196_2_2_1_1_0_0 64 rfl rfl k
  have el : dot_S6x196x64_S6x196x64_S6x196x196_2_2_1_1_0_0.lhsIdx (ix3 h n m) ((contrEquiv1 dot_S6x196x64_S6x196x64_S6x196x196_2_2_1_1_0_0 64 rfl rfl).symm k) = ix3 h n k := funext fun a => Fin.ext (by
    match a with
    | ⟨0, _⟩ => exact lhs_scoreDot_0 _ _
    | ⟨1, _⟩ => exact lhs_scoreDot_1 _ _
    | ⟨2, _⟩ => exact (dot_S6x196x64_S6x196x64_S6x196x196_2_2_1_1_0_0.lhsIdx_val_of_single rfl _ _).trans hk)
  have er : dot_S6x196x64_S6x196x64_S6x196x196_2_2_1_1_0_0.rhsIdx (ix3 h n m) ((contrEquiv1 dot_S6x196x64_S6x196x64_S6x196x196_2_2_1_1_0_0 64 rfl rfl).symm k) = ix3 h m k := funext fun a => Fin.ext (by
    match a with
    | ⟨0, _⟩ => exact rhs_scoreDot_0 _ _
    | ⟨1, _⟩ => exact rhs_scoreDot_1 _ _
    | ⟨2, _⟩ => exact (dot_S6x196x64_S6x196x64_S6x196x196_2_2_1_1_0_0.rhsIdx_val_of_single rfl _ _).trans hk)
  rw [el, er]

theorem lhs_mixDot_0 (i : S6x196x64.Idx) (q : dot_S6x196x196_S6x196x64_S6x196x64_2_1_1_2_0_0.contr.Idx) :
    (dot_S6x196x196_S6x196x64_S6x196x64_2_1_1_2_0_0.lhsIdx i q 0).val = (i 0).val := by
  unfold DotDims.lhsIdx
  rw [dif_pos (show (0 : Fin S6x196x196.rank) ∈ dot_S6x196x196_S6x196x64_S6x196x64_2_1_1_2_0_0.lhsBatch by decide)]
  rfl

theorem lhs_mixDot_1 (i : S6x196x64.Idx) (q : dot_S6x196x196_S6x196x64_S6x196x64_2_1_1_2_0_0.contr.Idx) :
    (dot_S6x196x196_S6x196x64_S6x196x64_2_1_1_2_0_0.lhsIdx i q 1).val = (i 1).val := by
  unfold DotDims.lhsIdx
  rw [dif_neg (show ¬(1 : Fin S6x196x196.rank) ∈ dot_S6x196x196_S6x196x64_S6x196x64_2_1_1_2_0_0.lhsBatch by decide), dif_pos (show (1 : Fin S6x196x196.rank) ∈ dot_S6x196x196_S6x196x64_S6x196x64_2_1_1_2_0_0.lhsNonContracting by decide)]
  rfl

theorem rhs_mixDot_0 (i : S6x196x64.Idx) (q : dot_S6x196x196_S6x196x64_S6x196x64_2_1_1_2_0_0.contr.Idx) :
    (dot_S6x196x196_S6x196x64_S6x196x64_2_1_1_2_0_0.rhsIdx i q 0).val = (i 0).val := by
  unfold DotDims.rhsIdx
  rw [dif_pos (show (0 : Fin S6x196x64.rank) ∈ dot_S6x196x196_S6x196x64_S6x196x64_2_1_1_2_0_0.rhsBatch by decide)]
  rfl

theorem rhs_mixDot_2 (i : S6x196x64.Idx) (q : dot_S6x196x196_S6x196x64_S6x196x64_2_1_1_2_0_0.contr.Idx) :
    (dot_S6x196x196_S6x196x64_S6x196x64_2_1_1_2_0_0.rhsIdx i q 2).val = (i 2).val := by
  unfold DotDims.rhsIdx
  rw [dif_neg (show ¬(2 : Fin S6x196x64.rank) ∈ dot_S6x196x196_S6x196x64_S6x196x64_2_1_1_2_0_0.rhsBatch by decide), dif_pos (show (2 : Fin S6x196x64.rank) ∈ dot_S6x196x196_S6x196x64_S6x196x64_2_1_1_2_0_0.rhsNonContracting by decide)]
  rfl

/-- The batched product of the weights with the values at `(h, n, d)`: per head `h`, row `n` of the weights against
    column `d` of the values, over the 196 rows. -/
theorem mixDot_apply (l : FVec Ideal S6x196x196 φ₁) (r : FVec Ideal S6x196x64 φ₂) (h : Fin 6) (n : Fin 196) (d : Fin 64) :
    matmul dot_S6x196x196_S6x196x64_S6x196x64_2_1_1_2_0_0 none l r (constant S6x196x64 .f32 0x00000000#32) (ix3 h n d)
      = ∑ m : Fin 196, l (ix3 h n m) * r (ix3 h m d) := by
  simp only [matmul]
  rw [Ideal.matmul_constant_zero_apply, ← Equiv.sum_comp (contrEquiv1 dot_S6x196x196_S6x196x64_S6x196x64_2_1_1_2_0_0 196 rfl rfl).symm]
  refine Finset.sum_congr rfl fun k _ => ?_
  have hk := contrEquiv1_symm_val dot_S6x196x196_S6x196x64_S6x196x64_2_1_1_2_0_0 196 rfl rfl k
  have el : dot_S6x196x196_S6x196x64_S6x196x64_2_1_1_2_0_0.lhsIdx (ix3 h n d) ((contrEquiv1 dot_S6x196x196_S6x196x64_S6x196x64_2_1_1_2_0_0 196 rfl rfl).symm k) = ix3 h n k := funext fun a => Fin.ext (by
    match a with
    | ⟨0, _⟩ => exact lhs_mixDot_0 _ _
    | ⟨1, _⟩ => exact lhs_mixDot_1 _ _
    | ⟨2, _⟩ => exact (dot_S6x196x196_S6x196x64_S6x196x64_2_1_1_2_0_0.lhsIdx_val_of_single rfl _ _).trans hk)
  have er : dot_S6x196x196_S6x196x64_S6x196x64_2_1_1_2_0_0.rhsIdx (ix3 h n d) ((contrEquiv1 dot_S6x196x196_S6x196x64_S6x196x64_2_1_1_2_0_0 196 rfl rfl).symm k) = ix3 h k d := funext fun a => Fin.ext (by
    match a with
    | ⟨0, _⟩ => exact rhs_mixDot_0 _ _
    | ⟨1, _⟩ => exact (dot_S6x196x196_S6x196x64_S6x196x64_2_1_1_2_0_0.rhsIdx_val_of_single rfl _ _).trans hk
    | ⟨2, _⟩ => exact rhs_mixDot_2 _ _)
  rw [el, er]

end Dots

/-! ## The projection payload at an index -/

/-- The first payload — the whole block of 8 slices projected at once — read at slice `k`, row `n`, column `o`: row
    `k·196 + n` of the flattened block against row `o` of the weights, plus the bias at `o`. -/
theorem pay1_apply (x1 : Vec Ideal S1152x384 .f32) (x2 : Vec Ideal S1152 .f32) (x0 : Vec Ideal S1x8x196x384 .f32)
    (k : Fin 8) (n : Fin 196) (o : Fin 1152) :
    k0_pay1 (F := Ideal) x1 x2 x0 (ix3 k n o)
      = Cert.Attn.qkv (fun n c => x0 (ix4 (0 : Fin 1) k n c)) (fun o c => x1 (ix2 o c)) (fun o => x2 (ix1 o)) n o := by
  have hr : k.val * 196 + n.val < 1568 := by have := k.isLt; have := n.isLt; omega
  unfold k0_pay1 Cert.Attn.qkv
  -- the identity cast, then the 1568 rows cut into 8 slices of 196: row k·196 + n
  refine (congrFun (shapeCast_self _ _) _).trans ?_
  refine (shapeCast_rc_abc_apply _ _ k n o ⟨k.val * 196 + n.val, hr⟩ rfl).trans ?_
  refine (addf_apply _ _ _).trans ?_
  refine congrArg₂ (· + ·) ?_ ?_
  · -- the product: row k·196 + n of the flattened block is slice k, row n
    refine (qkvDot_apply _ _ _ _).trans (Finset.sum_congr rfl fun c _ => ?_)
    refine congrArg₂ (· * ·) ?_ (bf16_apply _ _ _)
    refine (bf16_apply _ _ _).trans ?_
    exact (shapeCast_abc_rc_apply _ _ k n c ⟨k.val * 196 + n.val, hr⟩ rfl).trans (shapeCast_1abc_abc_apply _ _ k n c)
  · -- the bias row, broadcast over the rows
    exact (broadcastTo_1b_ab_apply _ _ _ _).trans (shapeCast_a_1a_apply _ _ _ _)

/-! ## The attention payload, stage by stage -/

section Attention

/-- Part `s` of the 1152 projection columns (offset `s·384`), cut out and split into 6 heads of 64 lanes, reads at
    `(m, h, d)` the projection's column `col s h d`. -/
theorem splitPart_apply {α : Type} (y : (⟨2, ![196, 1152]⟩ : Shape).Idx → α) (off : ℕ)
    (hs : (⟨2, ![196, 1152]⟩ : Shape).Slices ![0, off] ⟨2, ![196, 384]⟩)
    (hc : (⟨2, ![196, 384]⟩ : Shape).ShapeCasts ⟨3, ![196, 6, 64]⟩) (s : Fin 3) (hoff : off = s.val * 384)
    (m : Fin 196) (h : Fin 6) (d : Fin 64) :
    shapeCast ⟨3, ![196, 6, 64]⟩ (extractStridedSlice ⟨2, ![196, 384]⟩ ![0, off] y hs) hc (ix3 m h d) = y (ix2 m (col s h d)) :=
  have hq : h.val * 64 + d.val < 384 := by have := h.isLt; have := d.isLt; omega
  (shapeCast_nc_nab_apply _ hc rfl m h d ⟨h.val * 64 + d.val, hq⟩ rfl).trans
    (slice2_axis1_apply off y hs m ⟨h.val * 64 + d.val, hq⟩ (col s h d) (by
      show s.val * 384 + h.val * 64 + d.val = off + (h.val * 64 + d.val)
      rw [hoff]; omega))

/-- A shifted exponential at an index. -/
theorem expShift_apply {s : Shape} (S B : FVec Ideal s .f32) (i : s.Idx) : exp (subf S B) i = Ideal.exp (S i - B i) := rfl

/-- The row maximum of a stack of score matrices, kept as a unit lane and broadcast back over the row: at `(h, n, ·)` the
    fold of `max` over row `(h, n)` from the accumulator's value. -/
theorem rowMaxB_apply (S : FVec Ideal S6x196x196 .f32) (sc : Fin 6 → Fin 196 → Fin 196 → EReal)
    (hS : ∀ h n m, S (ix3 h n m) = sc h n m)
    (hred : S6x196x196.Reduces [2] S6x196) (hc : S6x196.ShapeCasts S6x196x1) (hb : S6x196x1.Broadcasts S6x196x196)
    (hφ : FKind.Formats .f32) (hmax : (0xFF800000#32 : BitVec 32) = FKind.maximumf.neutral .f32 hφ)
    (h : Fin 6) (n m : Fin 196) :
    broadcastTo S6x196x196 (shapeCast S6x196x1 (multiReduction .maximumf [2] S6x196 S 0xFF800000#32 hred hφ hmax) hc) hb (ix3 h n m)
      = (Finset.univ : Finset (Fin 196)).fold max (Ideal.ofBits .f32 0xFF800000#32) (fun m' => sc h n m') :=
  (broadcastTo_ab1_abc_apply _ hb h n m).trans ((shapeCast_ab_ab1_apply _ hc h n 0).trans
    ((laneMax3_apply S _ hred hφ hmax h n).trans
      (congrArg (fun f => Finset.fold max (Ideal.ofBits .f32 0xFF800000#32) f (Finset.univ : Finset (Fin 196)))
        (funext fun m' => hS h n m'))))

/-- The row sum likewise: at `(h, n, ·)` the sum of row `(h, n)`. -/
theorem rowSumB_apply (E : FVec Ideal S6x196x196 .f32) (e : Fin 6 → Fin 196 → Fin 196 → EReal)
    (hE : ∀ h n m, E (ix3 h n m) = e h n m)
    (hred : S6x196x196.Reduces [2] S6x196) (hc : S6x196.ShapeCasts S6x196x1) (hb : S6x196x1.Broadcasts S6x196x196)
    (hφ : FKind.Formats .f32) (hadd : (0x00000000#32 : BitVec 32) = FKind.add.neutral .f32 hφ)
    (h : Fin 6) (n m : Fin 196) :
    broadcastTo S6x196x196 (shapeCast S6x196x1 (multiReduction .add [2] S6x196 E 0x00000000#32 hred hφ hadd) hc) hb (ix3 h n m)
      = ∑ m' : Fin 196, e h n m' :=
  (broadcastTo_ab1_abc_apply _ hb h n m).trans ((shapeCast_ab_ab1_apply _ hc h n 0).trans
    ((laneSum3_apply E _ hred hφ hadd h n).trans (Finset.sum_congr rfl fun m' _ => hE h n m')))

/-- The softmax of a stack of score matrices along the rows, as the kernel computes it — shift by the row maximum,
    exponentiate, divide by the row sum — read at `(h, n, m)` from the scores read at an index. -/
theorem softmax_apply (S : FVec Ideal S6x196x196 .f32) (sc : Fin 6 → Fin 196 → Fin 196 → EReal)
    (hS : ∀ h n m, S (ix3 h n m) = sc h n m)
    (hred : S6x196x196.Reduces [2] S6x196) (hc : S6x196.ShapeCasts S6x196x1) (hb : S6x196x1.Broadcasts S6x196x196)
    (hφ : FKind.Formats .f32) (hmax : (0xFF800000#32 : BitVec 32) = FKind.maximumf.neutral .f32 hφ)
    (hadd : (0x00000000#32 : BitVec 32) = FKind.add.neutral .f32 hφ) (h : Fin 6) (n m : Fin 196) :
    divf (exp (subf S (broadcastTo S6x196x196 (shapeCast S6x196x1 (multiReduction .maximumf [2] S6x196 S 0xFF800000#32 hred hφ hmax) hc) hb)))
        (broadcastTo S6x196x196 (shapeCast S6x196x1 (multiReduction .add [2] S6x196
          (exp (subf S (broadcastTo S6x196x196 (shapeCast S6x196x1 (multiReduction .maximumf [2] S6x196 S 0xFF800000#32 hred hφ hmax) hc) hb)))
          0x00000000#32 hred hφ hadd) hc) hb) (ix3 h n m)
      = Ideal.div
          (Ideal.exp (sc h n m - (Finset.univ : Finset (Fin 196)).fold max (Ideal.ofBits .f32 0xFF800000#32) (fun m' => sc h n m')))
          (∑ m'' : Fin 196, Ideal.exp (sc h n m''
            - (Finset.univ : Finset (Fin 196)).fold max (Ideal.ofBits .f32 0xFF800000#32) (fun m' => sc h n m'))) :=
  have hE : ∀ h n m, exp (subf S (broadcastTo S6x196x196 (shapeCast S6x196x1
        (multiReduction .maximumf [2] S6x196 S 0xFF800000#32 hred hφ hmax) hc) hb)) (ix3 h n m)
      = Ideal.exp (sc h n m - (Finset.univ : Finset (Fin 196)).fold max (Ideal.ofBits .f32 0xFF800000#32) (fun m' => sc h n m')) :=
    fun h n m => (expShift_apply _ _ _).trans
      (congrArg Ideal.exp (congrArg₂ (· - ·) (hS h n m) (rowMaxB_apply S sc hS hred hc hb hφ hmax h n m)))
  (divf_apply _ _ _).trans (congrArg₂ Ideal.div (hE h n m) (rowSumB_apply _ _ hE hred hc hb hφ hadd h n m))

end Attention

/-! ## The attention payload at an index -/

/-- The second payload — one slice's attention output — read at row `n`, channel `co`: the concatenated head outputs
    of row `n` against row `co` of the output weights, plus the bias at `co`. -/
theorem pay2_apply (x3 : Vec Ideal S384x384 .f32) (x4 : Vec Ideal S384 .f32) (v21 : Vec Ideal S1x196x1152 .f32)
    (n : Fin 196) (co : Fin 384) :
    k0_pay2 (F := Ideal) x3 x4 v21 (ix4 (0 : Fin 1) (0 : Fin 1) n co)
      = Cert.Attn.outKer (fun n o => v21 (ix3 (0 : Fin 1) n o)) (fun co c => x3 (ix2 co c)) (fun co => x4 (ix1 co)) n co := by
  unfold k0_pay2 Cert.Attn.outKer
  refine (shapeCast_ab_11ab_apply _ _ _ _ n co).trans ?_
  refine (addf_apply _ _ _).trans ?_
  refine congrArg₂ (· + ·) ?_ ?_
  · -- the output product over the 384 channels; channel c is head c / 64, lane c % 64
    refine (outDot_apply _ _ n co).trans (Finset.sum_congr rfl fun c _ => ?_)
    refine congrArg₂ (· * ·) ?_ ((bf16_apply _ _ _).trans (congrFun (shapeCast_self _ _) _))
    refine (bf16_apply _ _ _).trans ?_
    refine (shapeCast_nab_nc_apply _ _ rfl n (hd64 c) (ln64 c) c
      (by show c.val = c.val / 64 * 64 + c.val % 64; omega)).trans ?_
    refine (transpose_ix3_102_apply _ _ n (hd64 c) (ln64 c)).trans ?_
    generalize hd64 c = h
    generalize ln64 c = d
    -- head h at row n, lane d: the weights of row n against the values' lane d
    unfold Cert.Attn.head
    refine (mixDot_apply _ _ h n d).trans (Finset.sum_congr rfl fun m _ => ?_)
    refine congrArg₂ (· * ·) ?_ ?_
    · -- the weight: the softmax of the scores
      refine (bf16_apply _ _ _).trans ?_
      refine softmax_apply _ (score (fun n o => v21 (ix3 (0 : Fin 1) n o))) (fun h n m => ?_) _ _ _ _ _ _ h n m
      -- the score of rows n, m in head h: scaled query lanes against key lanes
      unfold Cert.Attn.score
      refine (scoreDot_apply _ _ h n m).trans (Finset.sum_congr rfl fun e _ => ?_)
      refine congrArg₂ (· * ·) ?_ ?_
      · refine (bf16_apply _ _ _).trans ?_
        refine (transpose_ix3_102_apply _ _ h n e).trans ?_
        refine (mulf_apply _ _ _).trans ?_
        exact congrArg₂ (· * ·) ((splitPart_apply _ 0 _ _ 0 rfl n h e).trans (shapeCast_1ab_ab_apply _ _ n _)) rfl
      · refine (bf16_apply _ _ _).trans ?_
        refine (transpose_ix3_102_apply _ _ h m e).trans ?_
        exact (splitPart_apply _ 384 _ _ 1 rfl m h e).trans (shapeCast_1ab_ab_apply _ _ m _)
    · -- the value lane
      refine (bf16_apply _ _ _).trans ?_
      refine (transpose_ix3_102_apply _ _ h m d).trans ?_
      exact (splitPart_apply _ 768 _ _ 2 rfl m h d).trans (shapeCast_1ab_ab_apply _ _ m _)
  · -- the bias row, broadcast over the rows
    exact (broadcastTo_1b_ab_apply _ _ _ _).trans (shapeCast_a_1a_apply _ _ _ _)

end Cert.Attn.Ker

end
-- ==== Proof.KerFinal.lean ====
/-
  The kernel's result array is the specification's function of the argument arrays.

  A grid point (batch row `b`, block `q` of eight slices) reads block `(b, q)` of the input and the four
  parameter arrays whole, and writes back block `(b, q)` of the result.  What its body leaves in the output
  block is, entry by entry, the attention output of the matching slice of the input block
  (`block_apply`: the block as one function, then the two payloads read at an index).  Read where the
  output's rectangle says, the input block's slice `k` is slice `8·q + k` of batch row `b` of the
  input array, the parameters are the arrays themselves, and the projection weights are W_proj with its
  columns permuted — which the re-indexing law of the specification turns back into W_proj as given.
  So point `t` writes back block `t` of the specification's array; the 64 blocks tile the array; and
  the array after the run is the specification.
-/
import proofs.«167384_j91293824843977_2_alg».proof.Proof.AttnSpec
import proofs.«167384_j91293824843977_2_alg».proof.Proof.KerBlock
import proofs.«167384_j91293824843977_2_alg».proof.Proof.HostGlue
import proofs.«167384_j91293824843977_2_alg».proof.Proof.KerPayload
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)

/-- THE BLOCK AS ATTENTION: entry `(0, k, n, co)` of what the body leaves is the attention output of slice `k` of
    the input block at `(n, co)`, the head outputs concatenated against the weights the body was given. -/
theorem block_apply (c : Dev nD) (i : grid0.Coords) (arg2 : Memref sig .tc .vmem S1x8x196x384 .f32) (harg2 : arg2.IsWhole) (arg3 : Memref sig .tc .vmem S1152x384 .f32) (harg3 : arg3.IsWhole) (arg4 : Memref sig .tc .vmem S1152 .f32) (harg4 : arg4.IsWhole) (arg5 : Memref sig .tc .vmem S384x384 .f32) (harg5 : arg5.IsWhole) (arg6 : Memref sig .tc .vmem S384 .f32) (harg6 : arg6.IsWhole) (arg7 : Memref sig .tc .vmem S1x8x196x384 .f32) (harg7 : arg7.IsWhole) (arg8 : Memref sig .tc .vmem S8x196x1152 .f32) (harg8 : arg8.IsWhole)
    (x0 : Vec Ideal S1x8x196x384 .f32) (x1 : Vec Ideal S1152x384 .f32) (x2 : Vec Ideal S1152 .f32) (x3 : Vec Ideal S384x384 .f32) (x4 : Vec Ideal S384 .f32) (y : S1x8x196x384.Idx) :
    out0_A_5 (F := Ideal) c i arg2 harg2 arg3 harg3 arg4 harg4 arg5 harg5 arg6 harg6 arg7 harg7 arg8 harg8 x0 x1 x2 x3 x4 y
      = Cert.Attn.outKer (Cert.Attn.qkv (fun n cc => x0 (ix4 (0 : Fin 1) (y 1 : Fin 8) n cc)) (fun o cc => x1 (ix2 o cc)) (fun o => x2 (ix1 o)))
          (fun co cc => x3 (ix2 co cc)) (fun co => x4 (ix1 co)) (y 2 : Fin 196) (y 3 : Fin 384) := by
  have h1 := Blk.out_apply (F := Ideal) c i arg2 harg2 arg3 harg3 arg4 harg4 arg5 harg5 arg6 harg6 arg7 harg7 arg8 harg8 x0 x1 x2 x3 x4 y
  have h2 := Cert.Attn.Ker.pay2_apply x3 x4
    (View.ld (Val := Elt Ideal) (e' := EltTy.f32) (k0_pay1 x1 x2 x0) (Blk.slabRect (Blk.tripOf y))) (y 2 : Fin 196) (y 3 : Fin 384)
  have h3 : (fun (n : Fin 196) (o : Fin 1152) =>
        View.ld (Val := Elt Ideal) (e' := EltTy.f32) (k0_pay1 x1 x2 x0) (Blk.slabRect (Blk.tripOf y)) (ix3 (0 : Fin 1) n o))
      = Cert.Attn.qkv (fun n cc => x0 (ix4 (0 : Fin 1) (y 1 : Fin 8) n cc)) (fun o cc => x1 (ix2 o cc)) (fun o => x2 (ix1 o)) := by
    funext n o
    exact (Blk.slab_apply (k0_pay1 x1 x2 x0) (Blk.tripOf y) n o).trans (Cert.Attn.Ker.pay1_apply x1 x2 x0 _ n o)
  rw [h3] at h2
  exact h1.trans h2

variable (m : (ℓ : Loc nD τ sig) → Buf (Elt Ideal) ℓ) (ρ : Dev nD → PrngReg)

/-- The result array as the specification's function of the five argument arrays as launched. -/
abbrev Gm (c : Dev nD) : S8x64x196x384.Idx → EReal :=
  Cert.Attn.G (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps, decided over the 64 grid points: the input block moves with the output block over the
    first two axes, the four parameter windows stay at the origin. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = 0 ∧ win0_0.index t (3 : Fin 4) = 0
    ∧ win0_5.index t (2 : Fin 4) = 0 ∧ win0_5.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 4) ≤ 7 ∧ win0_5.index t (1 : Fin 4) ≤ 7 :=
  (by decide +kernel : ∀ t : Fin grid0.N, _)

/-- Every pair (batch row, block of eight slices) is some grid point's. -/
theorem idx_onto : ∀ (q0 : Fin 8) (q1 : Fin 8), ∃ t : Fin cfg0.N, win0_5.index t = ![q0.val, q1.val, 0, 0] :=
  (by decide +kernel : ∀ (q0 : Fin 8) (q1 : Fin 8), ∃ t : Fin grid0.N, win0_5.index t = ![q0.val, q1.val, 0, 0])

/-- WHAT POINT `t` WRITES BACK is block `t` of the specification's array. -/
theorem flushed_eq (c : Dev nD) (t : Fin cfg0.N) :
    (dats m 0 c).flushed 5 t = ((cfg0.win 5).blk t).view.read (Elt Ideal) (Gm m c) := by
  rw [Cert.KernelIdeal.Value.flushed5_A]
  obtain ⟨e00, e01, e02, e03, e52, e53, e10, e11, e20, e30, e31, e40, -, -⟩ := idx_facts t
  funext j
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) j = Gm m c (((cfg0.win 5).blk t).view.emb j)
  refine (block_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) j).trans ?_
  have hj0 : (j 0).val < 1 := (j 0).isLt
  have hj1 : (j 1).val < 8 := (j 1).isLt
  have hj2 : (j 2).val < 196 := (j 2).isLt
  have hj3 : (j 3).val < 384 := (j 3).isLt
  -- each window's block read where the output's rectangle says
  have h0 : (fun (n : Fin 196) (cc : Fin 384) => iblk m c 0 t (ix4 (0 : Fin 1) (j 1 : Fin 8) n cc))
      = fun n cc => m ((c : Thread nD τ).loc main_arg0) (ix4 ((((cfg0.win 5).blk t).view.emb j) 0 : Fin 8) ((((cfg0.win 5).blk t).view.emb j) 1 : Fin 64) n cc) := by
    funext n cc
    show V m c main_arg0 (((cfg0.win 0).blk t).view.emb (ix4 (0 : Fin 1) (j 1 : Fin 8) n cc)) = _
    rw [V_main_arg0]
    refine congrArg _ (funext fun a => Fin.ext ?_)
    match a with
    | ⟨0, _⟩ => show win0_0.index t (0 : Fin 4) * 1 + 1 * 0 = win0_5.index t (0 : Fin 4) * 1 + 1 * (j 0).val; omega
    | ⟨1, _⟩ => show win0_0.index t (1 : Fin 4) * 8 + 1 * (j 1).val = win0_5.index t (1 : Fin 4) * 8 + 1 * (j 1).val; omega
    | ⟨2, _⟩ => show win0_0.index t (2 : Fin 4) * 196 + 1 * n.val = n.val; omega
    | ⟨3, _⟩ => show win0_0.index t (3 : Fin 4) * 384 + 1 * cc.val = cc.val; omega
  have h1 : (fun (o : Fin 1152) (cc : Fin 384) => iblk m c 1 t (ix2 o cc))
      = fun o cc => m ((c : Thread nD τ).loc main_arg1) (ix2 o cc) := by
    funext o cc
    show V m c main_arg1 (((cfg0.win 1).blk t).view.emb (ix2 o cc)) = _
    rw [V_main_arg1]
    refine congrArg _ (funext fun a => Fin.ext ?_)
    match a with
    | ⟨0, _⟩ => show win0_1.index t (0 : Fin 2) * 1152 + 1 * o.val = o.val; omega
    | ⟨1, _⟩ => show win0_1.index t (1 : Fin 2) * 384 + 1 * cc.val = cc.val; omega
  have h2 : (fun (o : Fin 1152) => iblk m c 2 t (ix1 o)) = fun o => m ((c : Thread nD τ).loc main_arg2) (ix1 o) := by
    funext o
    show V m c main_arg2 (((cfg0.win 2).blk t).view.emb (ix1 o)) = _
    rw [V_main_arg2]
    refine congrArg _ (funext fun a => Fin.ext ?_)
    match a with
    | ⟨0, _⟩ => show win0_2.index t (0 : Fin 1) * 1152 + 1 * o.val = o.val; omega
  have h3 : (fun (co : Fin 384) (cc : Fin 384) => iblk m c 3 t (ix2 co cc))
      = fun co cc => m ((c : Thread nD τ).loc main_arg3) (ix2 co (Cert.Attn.perm cc)) := by
    funext co cc
    show V m c main_v2 (((cfg0.win 3).blk t).view.emb (ix2 co cc)) = _
    rw [← Glue.V_main_v2_apply m c co cc]
    refine congrArg _ (funext fun a => Fin.ext ?_)
    match a with
    | ⟨0, _⟩ => show win0_3.index t (0 : Fin 2) * 384 + 1 * co.val = co.val; omega
    | ⟨1, _⟩ => show win0_3.index t (1 : Fin 2) * 384 + 1 * cc.val = cc.val; omega
  have h4 : (fun (co : Fin 384) => iblk m c 4 t (ix1 co)) = fun co => m ((c : Thread nD τ).loc main_arg4) (ix1 co) := by
    funext co
    show V m c main_arg4 (((cfg0.win 4).blk t).view.emb (ix1 co)) = _
    rw [V_main_arg4]
    refine congrArg _ (funext fun a => Fin.ext ?_)
    match a with
    | ⟨0, _⟩ => show win0_4.index t (0 : Fin 1) * 384 + 1 * co.val = co.val; omega
  have hr2 : (j 2 : Fin 196) = ((((cfg0.win 5).blk t).view.emb j) 2 : Fin 196) := Fin.ext (by
    show (j 2).val = win0_5.index t (2 : Fin 4) * 196 + 1 * (j 2).val; omega)
  have hr3 : (j 3 : Fin 384) = ((((cfg0.win 5).blk t).view.emb j) 3 : Fin 384) := Fin.ext (by
    show (j 3).val = win0_5.index t (3 : Fin 4) * 384 + 1 * (j 3).val; omega)
  rw [h0, h1, h2, h3, h4, hr2, hr3]
  exact congrFun (congrFun (Cert.Attn.outKer_eq_outRef _ (fun co cc => m ((c : Thread nD τ).loc main_arg3) (ix2 co cc)) _) _) _

/-- An index of the array is in point `t`'s block iff each coordinate is in the block's range on its axis. -/
theorem mem_blk (t : Fin cfg0.N) (i : S8x64x196x384.Idx) :
    i ∈ ((cfg0.win 5).blk t).view.set ↔ ∀ a : Fin 4, win0_5.index t a * S1x8x196x384.size a ≤ (i a).val ∧ (i a).val < win0_5.index t a * S1x8x196x384.size a + S1x8x196x384.size a := by
  show i ∈ ((View.whole main_v3).slice (win0_5.rect t)).set ↔ _
  rw [View.set_slice_whole, Rect.mem_set_unit]
  exact Iff.rfl

/-- The 64 blocks tile the array: index `(b, s, n, co)` lies in the block of batch row `b`, slices `8·(s/8) …`. -/
theorem cover (i : S8x64x196x384.Idx) :
    ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 196 := (i 2).isLt
  have hi3 : (i 3).val < 384 := (i 3).isLt
  obtain ⟨t, ht⟩ := idx_onto ⟨(i 0).val, hi0⟩ ⟨(i 1).val / 8, by omega⟩
  have q0 : win0_5.index t (0 : Fin 4) = (i 0).val := congrFun ht 0
  have q1 : win0_5.index t (1 : Fin 4) = (i 1).val / 8 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 196 ≤ (i 2).val ∧ (i 2).val < win0_5.index t (2 : Fin 4) * 196 + 196; omega
  | ⟨3, _⟩ => show win0_5.index t (3 : Fin 4) * 384 ≤ (i 3).val ∧ (i 3).val < win0_5.index t (3 : Fin 4) * 384 + 384; omega

/-- THE ARRAY after the run is the specification's function of the argument arrays. -/
theorem final (c : Dev nD) : (dats m 0 c).arrAt 5 cfg0.N = Gm m c :=
  (dats m 0 c).arrAt_eq_of_cover 5 (Gm m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Final

end
-- ==== Proof.RefIsSpec.lean ====
/-
  The reference program's result, read index by index, is the attention specification `Cert.Attn.G`.

  The program computes, for every slice `(b, t)` of the input, the projection with 1152 columns, splits the
  columns into (part, head, lane) — column `s·384 + h·64 + d` —, moves part and head in front, and takes the three
  parts as query, key and value per head.  Each layer below reads one stage of the program at explicit coordinates
  and identifies it with the matching function of the specification at the projection `proj` of slice `(b, t)`:
  the projection, its three parts, the scores, the row maximum (a fold of `max` from -∞), the shifted exponentials,
  their row sums, the weights, the head outputs, the interleaved layout `c = d·6 + h` of the head outputs, and the
  output projection.  A reshape keeps the row-major position of an index, which is linear arithmetic in the
  coordinates; a transpose, a slice and a broadcast permute, shift or drop coordinates.
-/
import proofs.«167384_j91293824843977_2_alg».proof.Proof.AttnSpec
import proofs.«167384_j91293824843977_2_alg».proof.Proof.Gen.ReferenceIdeal.Read
import Idealize.ShloMosaic.Lib.ValueIdx
import Idealize.ShloMosaic.Lib.ValueIdxRank6
import Idealize.ShloMosaic.Lib.Pipeline.Value
import Idealize.ShloMosaic.Lib.ValueLayout
import Idealize.ShloMosaic.PureOps.Ideal.Laws
import Idealize.ShloMosaic.Lib.StableHlo.Run

noncomputable section

namespace Cert.Attn.Ref

open Idealize.ShloMosaic Idealize.ShloMosaic.ValueIdx Cert.ReferenceIdeal Cert.ReferenceIdeal.Read

/-- The projection of slice `(b, t)` of the input: the matrix the attention of that slice is computed from. -/
abbrev proj (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (t : Fin 64) : Fin 196 → Fin 1152 → EReal :=
  qkv (fun n c => x0 (ix4 b t n c)) (fun o c => x1 (ix2 o c)) (fun o => x2 (ix1 o))

/-- The projection with its bias, read at row `n` of slice `(b, t)`, column `o`. -/
theorem v3_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (t : Fin 64) (n : Fin 196) (o : Fin 1152) :
    val_main_v3 (F := Ideal) x0 x1 x2 (ix4 b t n o) = proj x0 x1 x2 b t n o := by
  rw [val_main_v3_apply, val_main_v0_apply, val_main_v2_apply, val_main_v1_apply]
  have el : ∀ k : Fin 384, lidx_main_v0 (ix4 b t n o) k = ix4 b t n k := fun k => funext fun a => Fin.ext (by
    match a with | ⟨0, _⟩ => rfl | ⟨1, _⟩ => rfl | ⟨2, _⟩ => rfl | ⟨3, _⟩ => rfl)
  have er : ∀ k : Fin 384, ridx_main_v0 (ix4 b t n o) k = ix2 o k := fun k => funext fun a => Fin.ext (by
    match a with | ⟨0, _⟩ => rfl | ⟨1, _⟩ => rfl)
  have eb : idx_main_v1 (idx_main_v2 (ix4 b t n o)) = ix1 o := funext fun a => Fin.ext (by
    match a with | ⟨0, _⟩ => rfl)
  rw [eb]
  simp only [el, er]
  rfl

/-- Splitting the 1152 columns into (part, head, lane) keeps the row-major position: column `s·384 + h·64 + d`. -/
theorem v4_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (t : Fin 64) (n : Fin 196) (s : Fin 3) (h : Fin 6) (d : Fin 64) :
    val_main_v4 (F := Ideal) x0 x1 x2 (ix6 b t n s h d) = proj x0 x1 x2 b t n (col s h d) := by
  unfold val_main_v4
  refine (shapeCast_apply (val_main_v3 (F := Ideal) x0 x1 x2) _ (ix6 b t n s h d) (ix4 b t n (col s h d)) ?_).trans (v3_at x0 x1 x2 b t n (col s h d))
  rewrite [Shape.rowMajor_val_four, Shape.rowMajor_val_six]
  show ((b.val * 64 + t.val) * 196 + n.val) * 1152 + (s.val * 384 + h.val * 64 + d.val)
    = ((((b.val * 64 + t.val) * 196 + n.val) * 3 + s.val) * 6 + h.val) * 64 + d.val
  omega

/-- The transposed array `[part, batch, head, slice, row, lane]` read through the transpose and the reshape. -/
theorem v5_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (s : Fin 3) (b : Fin 8) (h : Fin 6) (t : Fin 64) (n : Fin 196) (d : Fin 64) :
    val_main_v5 (F := Ideal) x0 x1 x2 (ix6 s b h t n d) = proj x0 x1 x2 b t n (col s h d) := by
  rw [val_main_v5_apply]
  have e : idx_main_v5 (ix6 s b h t n d) = ix6 b t n s h d := funext fun a => Fin.ext (by
    match a with | ⟨0, _⟩ => rfl | ⟨1, _⟩ => rfl | ⟨2, _⟩ => rfl | ⟨3, _⟩ => rfl | ⟨4, _⟩ => rfl | ⟨5, _⟩ => rfl)
  rw [e, v4_at]

/-- Dropping a leading axis of size one keeps the row-major position. -/
theorem dropUnit_at (y : S1x8x6x64x196x64.Idx → EReal) (hc : S1x8x6x64x196x64.ShapeCasts S8x6x64x196x64)
    (b : Fin 8) (h : Fin 6) (t : Fin 64) (n : Fin 196) (d : Fin 64) :
    shapeCast S8x6x64x196x64 y hc (ix5 b h t n d) = y (ix6 (0 : Fin 1) b h t n d) := by
  refine shapeCast_apply y hc (ix5 b h t n d) (ix6 (0 : Fin 1) b h t n d) ?_
  rewrite [Shape.rowMajor_val_five, Shape.rowMajor_val_six]
  show ((((0 * 8 + b.val) * 6 + h.val) * 64 + t.val) * 196 + n.val) * 64 + d.val
    = (((b.val * 6 + h.val) * 64 + t.val) * 196 + n.val) * 64 + d.val
  omega

/-- The query: part 0 of the projection, per head. -/
theorem v7_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) (d : Fin 64) :
    val_main_v7 (F := Ideal) x0 x1 x2 (ix5 b h t n d) = proj x0 x1 x2 b t n (col 0 h d) := by
  unfold val_main_v7
  rw [dropUnit_at, val_main_v6_apply]
  have e : idx_main_v6 (ix6 (0 : Fin 1) b h t n d) = ix6 (0 : Fin 3) b h t n d := funext fun a => Fin.ext (by
    match a with | ⟨0, _⟩ => rfl | ⟨1, _⟩ => rfl | ⟨2, _⟩ => rfl | ⟨3, _⟩ => rfl | ⟨4, _⟩ => rfl | ⟨5, _⟩ => rfl)
  rw [e, v5_at]

/-- The key: part 1. -/
theorem v9_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) (d : Fin 64) :
    val_main_v9 (F := Ideal) x0 x1 x2 (ix5 b h t n d) = proj x0 x1 x2 b t n (col 1 h d) := by
  unfold val_main_v9
  rw [dropUnit_at, val_main_v8_apply]
  have e : idx_main_v8 (ix6 (0 : Fin 1) b h t n d) = ix6 (1 : Fin 3) b h t n d := funext fun a => Fin.ext (by
    match a with | ⟨0, _⟩ => rfl | ⟨1, _⟩ => rfl | ⟨2, _⟩ => rfl | ⟨3, _⟩ => rfl | ⟨4, _⟩ => rfl | ⟨5, _⟩ => rfl)
  rw [e, v5_at]

/-- The value: part 2. -/
theorem v11_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) (d : Fin 64) :
    val_main_v11 (F := Ideal) x0 x1 x2 (ix5 b h t n d) = proj x0 x1 x2 b t n (col 2 h d) := by
  unfold val_main_v11
  rw [dropUnit_at, val_main_v10_apply]
  have e : idx_main_v10 (ix6 (0 : Fin 1) b h t n d) = ix6 (2 : Fin 3) b h t n d := funext fun a => Fin.ext (by
    match a with | ⟨0, _⟩ => rfl | ⟨1, _⟩ => rfl | ⟨2, _⟩ => rfl | ⟨3, _⟩ => rfl | ⟨4, _⟩ => rfl | ⟨5, _⟩ => rfl)
  rw [e, v5_at]

/-- The scaled query. -/
theorem v13_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) (d : Fin 64) :
    val_main_v13 (F := Ideal) x0 x1 x2 (ix5 b h t n d) = proj x0 x1 x2 b t n (col 0 h d) * scale := by
  rw [val_main_v13_apply, val_main_v12_apply, val_main_cst_apply, v7_at]
  rfl

/-- The scores of head `h` of slice `(b, t)`: scaled query rows against key rows, summed over the lanes. -/
theorem v14_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n m : Fin 196) :
    val_main_v14 (F := Ideal) x0 x1 x2 (ix5 b h t n m) = score (proj x0 x1 x2 b t) h n m := by
  rw [val_main_v14_apply]
  unfold score
  refine Finset.sum_congr rfl fun k _ => ?_
  have el : lidx_main_v14 (ix5 b h t n m) k = ix5 b h t n k := funext fun a => Fin.ext (by
    match a with | ⟨0, _⟩ => rfl | ⟨1, _⟩ => rfl | ⟨2, _⟩ => rfl | ⟨3, _⟩ => rfl | ⟨4, _⟩ => rfl)
  have er : ridx_main_v14 (ix5 b h t n m) k = ix5 b h t m k := funext fun a => Fin.ext (by
    match a with | ⟨0, _⟩ => rfl | ⟨1, _⟩ => rfl | ⟨2, _⟩ => rfl | ⟨3, _⟩ => rfl | ⟨4, _⟩ => rfl)
  rw [el, er, v13_at, v9_at]

/-- Starting a maximum from -∞ changes nothing. -/
theorem max_negInf (y : EReal) : max negInf y = y := by
  show max (Ideal.ofBits .f32 0xFF800000#32) y = y
  simp [Ideal.ofBits, Ideal.ieee]

/-- The row maximum: the fold of `max` from -∞ over the last axis of the scores. -/
theorem v15_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) :
    val_main_v15 (F := Ideal) x0 x1 x2 (ix4 b h t n) = rowMax (proj x0 x1 x2 b t) h n := by
  unfold val_main_v15
  have hr : S8x6x64x196x196.Reduces [4] S8x6x64x196 := by decide
  rw [Host.reduce_eq_fold_single FloatOps.maximumf _ _ _ hr]
  have hf : (val_main_v14 (F := Ideal) x0 x1 x2 ∘ hr.lift (ix4 b h t n))
      = fun m : Fin 196 => score (proj x0 x1 x2 b t) h n m := funext fun k => by
    have e : hr.lift (ix4 b h t n) k = ix5 b h t n (⟨k.val, k.isLt⟩ : Fin 196) := funext fun a => Fin.ext (by
      match a with | ⟨0, _⟩ => rfl | ⟨1, _⟩ => rfl | ⟨2, _⟩ => rfl | ⟨3, _⟩ => rfl | ⟨4, _⟩ => rfl)
    show val_main_v14 (F := Ideal) x0 x1 x2 (hr.lift (ix4 b h t n) k) = _
    rw [e, v14_at]
    rfl
  exact congrArg (fun f => Finset.fold max negInf f (Finset.univ : Finset (Fin 196))) hf

/-- The maximum against a broadcast -∞ is the row maximum again. -/
theorem v17_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) :
    val_main_v17 (F := Ideal) x0 x1 x2 (ix4 b h t n) = rowMax (proj x0 x1 x2 b t) h n := by
  rw [val_main_v17_apply, val_main_v16_apply, val_main_cst_1_apply, v15_at]
  exact max_negInf _

/-- The row maximum broadcast back along the row. -/
theorem v19_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n m : Fin 196) :
    val_main_v19 (F := Ideal) x0 x1 x2 (ix5 b h t n m) = rowMax (proj x0 x1 x2 b t) h n := by
  rw [val_main_v19_apply, val_main_v18_apply]
  have e : idx_main_v18 (idx_main_v19 (ix5 b h t n m)) = ix4 b h t n := funext fun a => Fin.ext (by
    match a with | ⟨0, _⟩ => rfl | ⟨1, _⟩ => rfl | ⟨2, _⟩ => rfl | ⟨3, _⟩ => rfl)
  rw [e, v17_at]

/-- The shifted exponentials. -/
theorem v21_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n m : Fin 196) :
    val_main_v21 (F := Ideal) x0 x1 x2 (ix5 b h t n m) = ex (proj x0 x1 x2 b t) h n m := by
  rw [val_main_v21_apply, val_main_v20_apply, v14_at, v19_at]
  rfl

/-- Their row sums, from the zero word. -/
theorem v22_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) :
    val_main_v22 (F := Ideal) x0 x1 x2 (ix4 b h t n) = rowSum (proj x0 x1 x2 b t) h n := by
  rw [val_main_v22_apply, val_main_cst_2_apply]
  unfold rowSum
  rw [Ideal.ofBits_def, Ideal.ofBits_zero_f32, zero_add]
  refine Finset.sum_congr rfl fun k _ => ?_
  have e : idx_main_v22 (ix4 b h t n) k = ix5 b h t n k := funext fun a => Fin.ext (by
    match a with | ⟨0, _⟩ => rfl | ⟨1, _⟩ => rfl | ⟨2, _⟩ => rfl | ⟨3, _⟩ => rfl | ⟨4, _⟩ => rfl)
  rw [e, v21_at]

/-- The softmax weights. -/
theorem v25_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n m : Fin 196) :
    val_main_v25 (F := Ideal) x0 x1 x2 (ix5 b h t n m) = prob (proj x0 x1 x2 b t) h n m := by
  rw [val_main_v25_apply, val_main_v24_apply, val_main_v23_apply, v21_at]
  have e : idx_main_v23 (idx_main_v24 (ix5 b h t n m)) = ix4 b h t n := funext fun a => Fin.ext (by
    match a with | ⟨0, _⟩ => rfl | ⟨1, _⟩ => rfl | ⟨2, _⟩ => rfl | ⟨3, _⟩ => rfl)
  rw [e, v22_at]
  rfl

/-- A head's output: the weights against the value rows. -/
theorem v26_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (h : Fin 6) (t : Fin 64) (n : Fin 196) (d : Fin 64) :
    val_main_v26 (F := Ideal) x0 x1 x2 (ix5 b h t n d) = head (proj x0 x1 x2 b t) h n d := by
  rw [val_main_v26_apply]
  unfold head
  refine Finset.sum_congr rfl fun k _ => ?_
  have el : lidx_main_v26 (ix5 b h t n d) k = ix5 b h t n k := funext fun a => Fin.ext (by
    match a with | ⟨0, _⟩ => rfl | ⟨1, _⟩ => rfl | ⟨2, _⟩ => rfl | ⟨3, _⟩ => rfl | ⟨4, _⟩ => rfl)
  have er : ridx_main_v26 (ix5 b h t n d) k = ix5 b h t k d := funext fun a => Fin.ext (by
    match a with | ⟨0, _⟩ => rfl | ⟨1, _⟩ => rfl | ⟨2, _⟩ => rfl | ⟨3, _⟩ => rfl | ⟨4, _⟩ => rfl)
  rw [el, er, v25_at, v11_at]

/-- The head outputs laid out with the head innermost: channel `c = d·6 + h` holds head `c % 6`, lane `c / 6`. -/
theorem v28_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (b : Fin 8) (t : Fin 64) (n : Fin 196) (c : Fin 384) :
    val_main_v28 (F := Ideal) x0 x1 x2 (ix4 b t n c) = head (proj x0 x1 x2 b t) (hd6 c) n (ln6 c) := by
  rw [val_main_v28_apply, val_main_v27_apply]
  have e : idx_main_v27 (idx_main_v28 (ix4 b t n c)) = ix5 b (hd6 c) t n (ln6 c) := funext fun a => Fin.ext (by
    have hb := b.isLt; have ht := t.isLt; have hn := n.isLt; have hc := c.isLt
    match a with
    | ⟨0, _⟩ => show (((b.val * 64 + t.val) * 196 + n.val) * 384 + c.val) / 4816896 = b.val; omega
    | ⟨1, _⟩ => show (((b.val * 64 + t.val) * 196 + n.val) * 384 + c.val) % 6 = c.val % 6; omega
    | ⟨2, _⟩ => show (((b.val * 64 + t.val) * 196 + n.val) * 384 + c.val) / 75264 % 64 = t.val; omega
    | ⟨3, _⟩ => show (((b.val * 64 + t.val) * 196 + n.val) * 384 + c.val) / 384 % 196 = n.val; omega
    | ⟨4, _⟩ => show (((b.val * 64 + t.val) * 196 + n.val) * 384 + c.val) / 6 % 64 = c.val / 6; omega)
  rw [e, v26_at]

/-- The output projection: the interleaved head outputs against a weight row. -/
theorem v29_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal)) (b : Fin 8) (t : Fin 64) (n : Fin 196) (co : Fin 384) :
    val_main_v29 (F := Ideal) x0 x1 x2 x3 (ix4 b t n co)
      = ∑ c : Fin 384, head (proj x0 x1 x2 b t) (hd6 c) n (ln6 c) * x3 (ix2 co c) := by
  rw [val_main_v29_apply]
  refine Finset.sum_congr rfl fun k _ => ?_
  have el : lidx_main_v29 (ix4 b t n co) k = ix4 b t n k := funext fun a => Fin.ext (by
    match a with | ⟨0, _⟩ => rfl | ⟨1, _⟩ => rfl | ⟨2, _⟩ => rfl | ⟨3, _⟩ => rfl)
  have er : ridx_main_v29 (ix4 b t n co) k = ix2 co k := funext fun a => Fin.ext (by
    match a with | ⟨0, _⟩ => rfl | ⟨1, _⟩ => rfl)
  rw [el, er, v28_at]

/-- The result at `(b, t, n, co)`: the attention output of slice `(b, t)`. -/
theorem v32_at (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal)) (x4 : (⟨S384, .f32⟩ : BufTy).Contents (Elt Ideal)) (b : Fin 8) (t : Fin 64) (n : Fin 196) (co : Fin 384) :
    val_main_v32 (F := Ideal) x0 x1 x2 x3 x4 (ix4 b t n co)
      = outRef (proj x0 x1 x2 b t) (fun co c => x3 (ix2 co c)) (fun co => x4 (ix1 co)) n co := by
  rw [val_main_v32_apply, val_main_v31_apply, val_main_v30_apply, v29_at]
  have e : idx_main_v30 (idx_main_v31 (ix4 b t n co)) = ix1 co := funext fun a => Fin.ext (by
    match a with | ⟨0, _⟩ => rfl)
  rw [e]
  rfl

/-- The reference program's result is the specification, index by index. -/
theorem ref_eq (x0 : (⟨S8x64x196x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal)) (x4 : (⟨S384, .f32⟩ : BufTy).Contents (Elt Ideal)) :
    val_main_v32 (F := Ideal) x0 x1 x2 x3 x4 = Cert.Attn.G x0 x1 x2 x3 x4 := by
  funext i
  have h := v32_at x0 x1 x2 x3 x4 (i 0) (i 1) (i 2) (i 3)
  exact (congrArg (val_main_v32 (F := Ideal) x0 x1 x2 x3 x4) (eq_ix4 i)).trans h

end Cert.Attn.Ref

end
-- ==== Proof.lean ====
/-
  Multi-head self-attention over 8 × 64 slices of 196 patches: a kernel that handles eight slices per
  grid point against the plain array program.

  Both compute, for every slice, the projection `qkv = x · W_qkvᵀ + b_qkv`, split it into six heads of
  queries (scaled by 1/8), keys and values, take per head the row-wise softmax of `q · kᵀ` (shifted by
  the row maximum, exponentiated, divided by the row sum), weigh the values, and contract the
  384 = 6 · 64 head outputs against W_proj, plus b_proj.  On the extended reals, where a change of
  float format is the identity and a matrix product is a plain sum, the two programs differ in
  layout only:
  * the kernel projects the eight slices of a block in one product and parks the result in a
    scratch, then loops over the slices; the array program works on whole arrays with the slice
    indices as batch axes;
  * the kernel keeps the head outputs concatenated (`h·64 + d`) and multiplies by a W_proj whose
    columns the host permuted beforehand, where the array program interleaves them (`d·6 + h`)
    against W_proj as given: one sum over 384 channels, re-indexed along a bijection.
  Only commutativity and associativity of addition are used, so the inputs' finiteness is never
  opened.

  The specification (`Cert.Attn.G`) states the result array as one function of the five argument
  arrays.  The kernel's run ends with the result array at that function: the eight loop trips'
  stores are the eight rows of a point's output block, each the per-slice payload of the scratch's
  slice, and the 64 blocks tile the array.  The array program's composed term is the same function,
  operation by operation.  The three frames are the generated ones; the idealization rewrote
  nothing.
-/
import proofs.«167384_j91293824843977_2_alg».proof.Defs
import proofs.«167384_j91293824843977_2_alg».proof.Proof.Gen.Kernel
import proofs.«167384_j91293824843977_2_alg».proof.Proof.Gen.Kernel.Frame
import proofs.«167384_j91293824843977_2_alg».proof.Proof.Gen.KernelIdeal
import proofs.«167384_j91293824843977_2_alg».proof.Proof.Gen.KernelIdeal.Frame
import proofs.«167384_j91293824843977_2_alg».proof.Proof.Gen.ReferenceIdeal
import proofs.«167384_j91293824843977_2_alg».proof.Proof.Gen.KernelIdeal.Value
import proofs.«167384_j91293824843977_2_alg».proof.Proof.Gen.ReferenceIdeal.Run
import proofs.«167384_j91293824843977_2_alg».proof.Proof.Gen.ReferenceIdeal.Read
import proofs.«167384_j91293824843977_2_alg».proof.Proof.Gen.Pre_finite_inputs
import proofs.«167384_j91293824843977_2_alg».proof.Proof.KerFinal
import proofs.«167384_j91293824843977_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The array program has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at the specification's
    function of them, and so does the array program's. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Attn.Ref.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
